-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel

variable [Facts]

def fn {F : FTy → Type} [FloatOps F] (main_arg0 : FVec F S2048x32768 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  main_v3
-- ==== Kernel.lean ====
abbrev S2048x32768 : Shape := ⟨2, ![2048, 32768]⟩
abbrev S2048x63 : Shape := ⟨2, ![2048, 63]⟩
abbrev S128x32768 : Shape := ⟨2, ![128, 32768]⟩
abbrev S128x63 : Shape := ⟨2, ![128, 63]⟩
abbrev S128x32 : Shape := ⟨2, ![128, 32]⟩
abbrev S128x1024 : Shape := ⟨2, ![128, 1024]⟩
abbrev S128 : Shape := ⟨1, ![128]⟩
abbrev S128x1 : Shape := ⟨2, ![128, 1]⟩
abbrev S128x16x2 : Shape := ⟨3, ![128, 16, 2]⟩
abbrev S128x16 : Shape := ⟨2, ![128, 16]⟩
abbrev S128x8x2 : Shape := ⟨3, ![128, 8, 2]⟩
abbrev S128x8 : Shape := ⟨2, ![128, 8]⟩
abbrev S128x4x2 : Shape := ⟨3, ![128, 4, 2]⟩
abbrev S128x4 : Shape := ⟨2, ![128, 4]⟩
abbrev S128x2x2 : Shape := ⟨3, ![128, 2, 2]⟩
abbrev S128x2 : Shape := ⟨2, ![128, 2]⟩
abbrev S128x1x2 : Shape := ⟨3, ![128, 1, 2]⟩

abbrev nBuf : Space → Nat
  | .hbm => 2
  | .vmem => 4
  | .smem => 0
  | _ => 0

abbrev bufTy : (tb : Table) → Fin (tcTables nBuf tb) → BufTy
  | .hbm, ⟨0, _⟩ => ⟨S2048x32768, .f32⟩
  | .hbm, ⟨1, _⟩ => ⟨S2048x63, .f32⟩
  | .local _ .vmem, ⟨0, _⟩ => ⟨S128x32768, .f32⟩
  | .local _ .vmem, ⟨1, _⟩ => ⟨S128x32768, .f32⟩
  | .local _ .vmem, ⟨2, _⟩ => ⟨S128x63, .f32⟩
  | .local _ .vmem, ⟨3, _⟩ => ⟨S128x63, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c1024_i32 : BitVec 32 := 1024#32
  let v15 : BitVec 32 := Scalar.muli arg3 c1024_i32
  v15
def k0_off1 (k0_t1 : Fin k0_t1_loop.trips) : Fin 2 → Nat :=
  let c0_7 : Index := 0#32
  let c0_i32 : BitVec 32 := 0#32
  let c1_i32 : BitVec 32 := 1#32
  let arg3 : BitVec 32 := Scf.iv c0_i32 c1_i32 k0_t1
  let c1024_i32 : BitVec 32 := 1024#32
  let v15 : BitVec 32 := Scalar.muli arg3 c1024_i32
  let v16 : BitVec 32 := v15
  let v17 : Index := Scalar.indexCast v16
  ![0, v17.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S128x1024 : 0 < S128x1024.numel
  reduces_S128x1024_S128 : S128x1024.Reduces [1] S128
  shapeCasts_S128_S128x1 : S128.ShapeCasts S128x1
  iota_S128x32_d1_w32 : S128x32.Iotas .tc 32 [1]
  shapeCasts_S128x1_S128x1 : S128x1.ShapeCasts S128x1
  broadcasts_S128x1_S128x32 : S128x1.Broadcasts S128x32
  shapeCasts_S128x32_S128x16x2 : S128x32.ShapeCasts S128x16x2
  reduces_S128x16x2_S128x16 : S128x16x2.Reduces [2] S128x16
  shapeCasts_S128x16_S128x8x2 : S128x16.ShapeCasts S128x8x2
  reduces_S128x8x2_S128x8 : S128x8x2.Reduces [2] S128x8
  shapeCasts_S128x8_S128x4x2 : S128x8.ShapeCasts S128x4x2
  reduces_S128x4x2_S128x4 : S128x4x2.Reduces [2] S128x4
  shapeCasts_S128x4_S128x2x2 : S128x4.ShapeCasts S128x2x2
  reduces_S128x2x2_S128x2 : S128x2x2.Reduces [2] S128x2
  shapeCasts_S128x2_S128x1x2 : S128x2.ShapeCasts S128x1x2
  reduces_S128x1x2_S128x1 : S128x1x2.Reduces [2] S128x1
  concatenates_S128x1_S128x2_S128x4_S128x8_S128x16_S128x32_S128x63_d1 : Shape.Concatenates [S128x1, S128x2, S128x4, S128x8, S128x16, S128x32] S128x63 1
  inb_S128x63_S128x63_0_0 : ∀ a, (![0, 0] : Fin 2 → Nat) a + S128x63.size a ≤ S128x63.size a
  h_S128x63 : 0 < S128x63.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1024.size a ≤ S128x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32768.size a ≤ S2048x32768.size a
  hwx0_0 : ∀ i : grid0.Coords, EltTy.bits .f32 = 32 ∨ (Rect.block (s := S2048x32768) S128x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x63.size a ≤ S2048x63.size a
  hwx0_1 : ∀ i : grid0.Coords, EltTy.bits .f32 = 32 ∨ (Rect.block (s := S2048x63) S128x63.size (cc0_transform_1 i) (hinb0_1 i)).WholeWords (EltTy.packing .f32)

variable [Facts₀]

abbrev win0_0 : Pipeline.Window sig grid0 :=
  Pipeline.Window.ofSpec (Memref.whole main_arg0) S128x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x63.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x32768 : Shape := ⟨2, ![2048, 32768]⟩
abbrev S_ : Shape := ⟨0, ![]⟩
abbrev S2048 : Shape := ⟨1, ![2048]⟩
abbrev S2048x1 : Shape := ⟨2, ![2048, 1]⟩
abbrev S2048x16384 : Shape := ⟨2, ![2048, 16384]⟩
abbrev S2048x1x16384 : Shape := ⟨3, ![2048, 1, 16384]⟩
abbrev S2048x2 : Shape := ⟨2, ![2048, 2]⟩
abbrev S2048x24576 : Shape := ⟨2, ![2048, 24576]⟩
abbrev S2048x3x8192 : Shape := ⟨3, ![2048, 3, 8192]⟩
abbrev S2048x3 : Shape := ⟨2, ![2048, 3]⟩
abbrev S2048x8192 : Shape := ⟨2, ![2048, 8192]⟩
abbrev S2048x4 : Shape := ⟨2, ![2048, 4]⟩
abbrev S2048x28672 : Shape := ⟨2, ![2048, 28672]⟩
abbrev S2048x7x4096 : Shape := ⟨3, ![2048, 7, 4096]⟩
abbrev S2048x7 : Shape := ⟨2, ![2048, 7]⟩
abbrev S2048x4096 : Shape := ⟨2, ![2048, 4096]⟩
abbrev S2048x8 : Shape := ⟨2, ![2048, 8]⟩
abbrev S2048x30720 : Shape := ⟨2, ![2048, 30720]⟩
abbrev S2048x15x2048 : Shape := ⟨3, ![2048, 15, 2048]⟩
abbrev S2048x15 : Shape := ⟨2, ![2048, 15]⟩
abbrev S2048x2048 : Shape := ⟨2, ![2048, 2048]⟩
abbrev S2048x16 : Shape := ⟨2, ![2048, 16]⟩
abbrev S2048x31744 : Shape := ⟨2, ![2048, 31744]⟩
abbrev S2048x31x1024 : Shape := ⟨3, ![2048, 31, 1024]⟩
abbrev S2048x31 : Shape := ⟨2, ![2048, 31]⟩
abbrev S2048x1024 : Shape := ⟨2, ![2048, 1024]⟩
abbrev S2048x32 : Shape := ⟨2, ![2048, 32]⟩
abbrev S2048x63 : Shape := ⟨2, ![2048, 63]⟩

abbrev nBuf : Space → Nat
  | .hbm => 50
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x16384, .f32⟩
  | .hbm, ⟨5, _⟩ => ⟨S2048x1x16384, .f32⟩
  | .hbm, ⟨6, _⟩ => ⟨S_, .f32⟩
  | .hbm, ⟨7, _⟩ => ⟨S2048x1, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x2, .f32⟩
  | .hbm, ⟨13, _⟩ => ⟨S2048x24576, .f32⟩
  | .hbm, ⟨14, _⟩ => ⟨S2048x3x8192, .f32⟩
  | .hbm, ⟨15, _⟩ => ⟨S_, .f32⟩
  | .hbm, ⟨16, _⟩ => ⟨S2048x3, .f32⟩
  | .hbm, ⟨17, _⟩ => ⟨S2048x8192, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x4, .f32⟩
  | .hbm, ⟨22, _⟩ => ⟨S2048x28672, .f32⟩
  | .hbm, ⟨23, _⟩ => ⟨S2048x7x4096, .f32⟩
  | .hbm, ⟨24, _⟩ => ⟨S_, .f32⟩
  | .hbm, ⟨25, _⟩ => ⟨S2048x7, .f32⟩
  | .hbm, ⟨26, _⟩ => ⟨S2048x4096, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x8, .f32⟩
  | .hbm, ⟨31, _⟩ => ⟨S2048x30720, .f32⟩
  | .hbm, ⟨32, _⟩ => ⟨S2048x15x2048, .f32⟩
  | .hbm, ⟨33, _⟩ => ⟨S_, .f32⟩
  | .hbm, ⟨34, _⟩ => ⟨S2048x15, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x16, .f32⟩
  | .hbm, ⟨40, _⟩ => ⟨S2048x31744, .f32⟩
  | .hbm, ⟨41, _⟩ => ⟨S2048x31x1024, .f32⟩
  | .hbm, ⟨42, _⟩ => ⟨S_, .f32⟩
  | .hbm, ⟨43, _⟩ => ⟨S2048x31, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S2048x32, .f32⟩
  | .hbm, ⟨49, _⟩ => ⟨S2048x63, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S2048x32768_S2048_d1 : S2048x32768.ReducesTo [1] S2048
  h_S_ : 0 < S_.numel
  bcast_S2048_S2048x1_0 : S2048.BroadcastsInDim S2048x1 (![0] : Fin 1 → Fin S2048x1.rank)
  slices_S2048x32768_S2048x16384_0_0 : S2048x32768.Slices ![0, 0] S2048x16384
  shapeCasts_S2048x16384_S2048x1x16384 : S2048x16384.ShapeCasts S2048x1x16384
  reducesTo_S2048x1x16384_S2048x1_d2 : S2048x1x16384.ReducesTo [2] S2048x1
  slices_S2048x32768_S2048x16384_0_16384 : S2048x32768.Slices ![0, 16384] S2048x16384
  reducesTo_S2048x16384_S2048_d1 : S2048x16384.ReducesTo [1] S2048
  concatenates_S2048x1_S2048x1_S2048x2_d1 : Shape.Concatenates [S2048x1, S2048x1] S2048x2 1
  slices_S2048x32768_S2048x24576_0_0 : S2048x32768.Slices ![0, 0] S2048x24576
  shapeCasts_S2048x24576_S2048x3x8192 : S2048x24576.ShapeCasts S2048x3x8192
  reducesTo_S2048x3x8192_S2048x3_d2 : S2048x3x8192.ReducesTo [2] S2048x3
  slices_S2048x32768_S2048x8192_0_24576 : S2048x32768.Slices ![0, 24576] S2048x8192
  reducesTo_S2048x8192_S2048_d1 : S2048x8192.ReducesTo [1] S2048
  concatenates_S2048x3_S2048x1_S2048x4_d1 : Shape.Concatenates [S2048x3, S2048x1] S2048x4 1
  slices_S2048x32768_S2048x28672_0_0 : S2048x32768.Slices ![0, 0] S2048x28672
  shapeCasts_S2048x28672_S2048x7x4096 : S2048x28672.ShapeCasts S2048x7x4096
  reducesTo_S2048x7x4096_S2048x7_d2 : S2048x7x4096.ReducesTo [2] S2048x7
  slices_S2048x32768_S2048x4096_0_28672 : S2048x32768.Slices ![0, 28672] S2048x4096
  reducesTo_S2048x4096_S2048_d1 : S2048x4096.ReducesTo [1] S2048
  concatenates_S2048x7_S2048x1_S2048x8_d1 : Shape.Concatenates [S2048x7, S2048x1] S2048x8 1
  slices_S2048x32768_S2048x30720_0_0 : S2048x32768.Slices ![0, 0] S2048x30720
  shapeCasts_S2048x30720_S2048x15x2048 : S2048x30720.ShapeCasts S2048x15x2048
  reducesTo_S2048x15x2048_S2048x15_d2 : S2048x15x2048.ReducesTo [2] S2048x15
  slices_S2048x32768_S2048x2048_0_30720 : S2048x32768.Slices ![0, 30720] S2048x2048
  reducesTo_S2048x2048_S2048_d1 : S2048x2048.ReducesTo [1] S2048
  concatenates_S2048x15_S2048x1_S2048x16_d1 : Shape.Concatenates [S2048x15, S2048x1] S2048x16 1
  slices_S2048x32768_S2048x31744_0_0 : S2048x32768.Slices ![0, 0] S2048x31744
  shapeCasts_S2048x31744_S2048x31x1024 : S2048x31744.ShapeCasts S2048x31x1024
  reducesTo_S2048x31x1024_S2048x31_d2 : S2048x31x1024.ReducesTo [2] S2048x31
  slices_S2048x32768_S2048x1024_0_31744 : S2048x32768.Slices ![0, 31744] S2048x1024
  reducesTo_S2048x1024_S2048_d1 : S2048x1024.ReducesTo [1] S2048
  concatenates_S2048x31_S2048x1_S2048x32_d1 : Shape.Concatenates [S2048x31, S2048x1] S2048x32 1
  concatenates_S2048x1_S2048x2_S2048x4_S2048x8_S2048x16_S2048x32_S2048x63_d1 : Shape.Concatenates [S2048x1, S2048x2, S2048x4, S2048x8, S2048x16, S2048x32] S2048x63 1

variable [Facts₀]

class Facts : Prop extends Facts₀ where

variable [Facts]
-- ==== Proof.BinMax.lean ====
/-
  The pooled value, stated once with no program in sight.

  A row of extended reals is read as a function of the column number (⊥ past the row's end). At scale
  p ∈ {1, 2, 4, 8, 16, 32} a row of 32768 entries is cut into p consecutive bins of width 32768 / p, and
  the pooled entry of a bin is its largest entry: the fold of `max` over the bin from ⊥ = -∞, the bottom of
  the extended reals, hence the bin's supremum. The 63 pooled entries of a row are laid out scale by scale:
  column 0 the whole row, columns 1–2 the halves, 3–6 the quarters, 7–14, 15–30, and 31–62 the 32 finest bins.

  Everything that joins the two programs is here:
  * a fold of `max` from ⊥ lies below `c` exactly when every term does (`fold_le_iff`), so such a fold is
    determined by the set of its terms — neither order nor grouping matters, and no finiteness is needed;
  * a bin of width w + w is the larger of its two halves (`bin_pair`), which is why building each coarser
    scale from the next finer one by pairwise maxima gives the same 63 numbers as pooling every scale
    directly from the row.
-/
import Idealize.ShloMosaic.PureOps.Ideal
import Idealize.ShloMosaic.Lib.ValueIdx

noncomputable section

namespace Cert.BinMax

open Idealize.ShloMosaic Idealize.ShloMosaic.ValueIdx

/-- The word 0xFF800000 is -∞, the bottom of the extended reals. -/
theorem ninf : Ideal.ofBits .f32 0xFF800000#32 = (⊥ : EReal) := by simp [Ideal.ofBits, Ideal.ieee]

/-- A fold of `max` from ⊥ over finitely many terms is below `c` iff every term is. -/
theorem fold_le_iff {n : ℕ} (g : Fin n → EReal) (c : EReal) :
    (Finset.univ : Finset (Fin n)).fold max ⊥ g ≤ c ↔ ∀ k, g k ≤ c := by
  rw [Finset.fold_max_le]
  exact ⟨fun h k => h.2 k (Finset.mem_univ k), fun h => ⟨bot_le, fun k _ => h k⟩⟩

/-- The largest of the `w` entries of `f` from column `o` on. -/
def bin (f : ℕ → EReal) (w o : ℕ) : EReal :=
  (Finset.univ : Finset (Fin w)).fold max ⊥ fun k => f (o + k.val)

/-- A bin's maximum is below `c` iff each of its entries is. -/
theorem bin_le_iff (f : ℕ → EReal) (w o : ℕ) (c : EReal) : bin f w o ≤ c ↔ ∀ k, k < w → f (o + k) ≤ c := by
  unfold bin
  rw [fold_le_iff]
  exact ⟨fun h k hk => h ⟨k, hk⟩, fun h k => h k.val k.isLt⟩

/-- Any fold of `max` from ⊥ whose terms are exactly the bin's entries, in any arrangement, is the bin's maximum. -/
theorem eq_bin_of_le_iff (f : ℕ → EReal) (w o : ℕ) (v : EReal)
    (h : ∀ c, v ≤ c ↔ ∀ k, k < w → f (o + k) ≤ c) : v = bin f w o :=
  eq_of_forall_ge_iff fun c => by rw [h c, bin_le_iff]

/-- A bin of width `w + w` is the larger of its left and right halves. -/
theorem bin_pair (f : ℕ → EReal) (w o : ℕ) : bin f (w + w) o = max (bin f w o) (bin f w (o + w)) := by
  refine eq_of_forall_ge_iff fun c => ?_
  rw [max_le_iff, bin_le_iff, bin_le_iff, bin_le_iff]
  constructor
  · intro h
    refine ⟨fun k hk => h k (by omega), fun k hk => ?_⟩
    have := h (w + k) (by omega)
    rwa [← Nat.add_assoc] at this
  · rintro ⟨h1, h2⟩ k hk
    by_cases hkw : k < w
    · exact h1 k hkw
    · have := h2 (k - w) (by omega)
      rwa [show o + w + (k - w) = o + k by omega] at this

/-- The larger of two adjacent bins of width `w`, written as the fold over the pair that a reduction along an
    axis of extent two computes, is the bin of width `w + w` they make up. -/
theorem fold_pair_bin (f : ℕ → EReal) (w j : ℕ) (g : Fin 2 → EReal)
    (hg : ∀ k : Fin 2, g k = bin f w ((2 * j + k.val) * w)) :
    (Finset.univ : Finset (Fin 2)).fold max ⊥ g = bin f (w + w) (j * (w + w)) := by
  refine eq_of_forall_ge_iff fun c => ?_
  rw [fold_le_iff, Fin.forall_fin_two, hg 0, hg 1, bin_pair, max_le_iff]
  show (bin f w ((2 * j + 0) * w) ≤ c ∧ bin f w ((2 * j + 1) * w) ≤ c) ↔ _
  rw [show (2 * j + 0) * w = j * (w + w) by ring, show (2 * j + 1) * w = j * (w + w) + w by ring]

/-- The 63 pooled entries of a row, by column: the scale is read off the column's range, the bin off its
    position inside the range. -/
def pooled (f : ℕ → EReal) (col : ℕ) : EReal :=
  if col < 1 then bin f 32768 (col * 32768)
  else if col < 3 then bin f 16384 ((col - 1) * 16384)
  else if col < 7 then bin f 8192 ((col - 3) * 8192)
  else if col < 15 then bin f 4096 ((col - 7) * 4096)
  else if col < 31 then bin f 2048 ((col - 15) * 2048)
  else bin f 1024 ((col - 31) * 1024)

/-- Row `r` of a matrix with `W` columns as a function of the column number, ⊥ past the end. -/
def rowOf {R W : ℕ} (x : (⟨2, ![R, W]⟩ : Shape).Idx → EReal) (r : Fin R) (n : ℕ) : EReal :=
  if h : n < W then x (ix2 r ⟨n, h⟩) else ⊥

theorem rowOf_lt {R W : ℕ} (x : (⟨2, ![R, W]⟩ : Shape).Idx → EReal) (r : Fin R) (n : ℕ) (h : n < W) :
    rowOf x r n = x (ix2 r ⟨n, h⟩) := dif_pos h

/-- The pooled matrix: entry `(r, c)` is pooled entry `c` of row `r`. -/
def G {R : ℕ} (x : (⟨2, ![R, 32768]⟩ : Shape).Idx → EReal) : (⟨2, ![R, 63]⟩ : Shape).Idx → EReal :=
  fun i => pooled (rowOf x (i 0)) (i 1).val

theorem G_ix2 {R : ℕ} (x : (⟨2, ![R, 32768]⟩ : Shape).Idx → EReal) (r : Fin R) (c : Fin 63) :
    G x (ix2 r c) = pooled (rowOf x r) c.val := rfl

end Cert.BinMax

end
-- ==== Proof.LibRows.lean ====
/-
  General lemmas about arrays with a kept unit column, read at an index, and about reductions along the last axis of a
  matrix, read at a row.

  * A vector of length `a` cast to a column `[a, 1]` holds at `(i, 0)` the vector's entry `i`.
  * A column `[a, 1]` broadcast to `[a, b]` holds at `(p, c)` the column's entry `p`.
  * Reducing a matrix `[a, b]` along its second axis, the reduced index `p` with coordinate `k` put back is `(p, k)`;
    so at the extended reals a row sum is `∑ k, v (p, k)` and a row maximum is the fold of `max` over `k ↦ v (p, k)`.
  * The same for a stack of matrices `[n, a, b]` reduced along its last axis by the host's reduction.
-/
import Idealize.ShloMosaic.Lib.Pipeline.Value
import Idealize.ShloMosaic.Lib.ValueIdx
import Idealize.ShloMosaic.PureOps.Ideal.Laws

noncomputable section

namespace Cert.LibRows

open Idealize.ShloMosaic Idealize.ShloMosaic.ValueIdx

variable {α : Type}

/-- A vector cast to a column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along a new second axis reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing `[a, b]` along its second axis: row `p` with coordinate `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Reducing `[n, a, b]` along its last axis: `(i, p)` with coordinate `k` put back is `(i, p, k)`. -/
theorem lift_row3 {n a b : ℕ} (h : (⟨3, ![n, a, b]⟩ : Shape).Reduces [2] (⟨2, ![n, a]⟩ : Shape)) (i : Fin n) (p : Fin a)
    (k : Fin ((⟨3, ![n, a, b]⟩ : Shape).size 2)) : h.lift (ix2 i p) k = ix3 i p (⟨k.val, k.isLt⟩ : Fin b) := by
  funext c; apply Fin.ext
  fin_cases c <;> rfl

variable {φ : FTy}

/-- A lane sum along the second axis, at row `p`, is the sum of the row. -/
theorem rowSum_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- A lane maximum along the second axis, at row `p`, is the fold of `max` over the row from the accumulator's value. -/
theorem rowMax_apply {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) fun k => v (ix2 p k) := by
  rw [Ideal.multiReduction_maximumf_single]
  exact congrArg (fun f => Finset.fold max (Ideal.ofBits φ acc) f (Finset.univ : Finset (Fin b)))
    (funext fun k => congrArg v (lift_row h p k))

/-- The host's reduction with a maximum body along the last axis of `[n, a, b]`, at `(i, p)`: the fold of `max` over
    that row from the initial value. -/
theorem hostRowMax3_apply {n a b : ℕ} {u : Shape} (x : FVec Ideal ⟨3, ![n, a, b]⟩ φ) (init : u.Idx → Ideal φ)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (i : Fin n) (p : Fin a) :
    Host.reduce FloatOps.maximumf x init h' hu (ix2 i p)
      = (Finset.univ : Finset (Fin b)).fold max (init (Shape.Idx.first hu)) fun k => x (ix3 i p k) := by
  rw [Host.reduce_eq_fold_single FloatOps.maximumf x init h' h hu]
  exact congrArg (fun f => Finset.fold max (init (Shape.Idx.first hu)) f (Finset.univ : Finset (Fin b)))
    (funext fun k => congrArg x (lift_row3 h i p k))

end Cert.LibRows

end
-- ==== Proof.KernelFinest.lean ====
/-
  The kernel's loop, read as values: after its 32 trips the carried [128, 32] array holds, at (r, q), the largest
  of the 1024 entries of block row r in columns 1024·q … 1024·q + 1023 — the 32 finest bins of each row.

  Trip k loads the 1024 columns from 1024·k of the staged block, takes each row's maximum from -∞, and writes it into
  column k of the carried array through a select on "column = k", leaving the other columns as they were. So before
  trip n the columns below n hold their bins and the others still hold the initial -∞ (induction on n); at n = 32
  every column holds its bin.
-/
import proofs.«166121_j23235773071814_2_alg».proof.Proof.Gen.KernelIdeal.Frame
import proofs.«166121_j23235773071814_2_alg».proof.Proof.BinMax
import proofs.«166121_j23235773071814_2_alg».proof.Proof.LibRows
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.Pool

open Cert.KernelIdeal Cert.KernelIdeal.Gen Cert.BinMax
open Idealize.ShloMosaic Idealize.ShloMosaic.ValueIdx Idealize.ShloMosaic.TcCoe Idealize.SL.Sem

/-- The loop makes 32 trips. -/
theorem trips_eq : k0_t1_loop.trips = 32 := by decide

section AnyF
variable {F : FTy → Type} [FloatOps F]

/-- What one trip yields, as the run found it: the trip's payload of the carried value and of the 1024 columns the
    trip loads. -/
theorem trip_eq (𝒱 : Variants) (c : Dev nD) (bd : Option 𝒱.V) (i : grid0.Coords)
    (arg1 : Memref sig .tc .vmem S128x32768 .f32) (harg1 : arg1.IsWhole)
    (arg2 : Memref sig .tc .vmem S128x63 .f32) (harg2 : arg2.IsWhole) (X : BufTy.Contents (Elt F) arg1.view.ty)
    (k : Fin k0_t1_loop.trips) (acc : FVec F S128x32 .f32) :
    tripR_k0_t1 (F := F) 𝒱 c bd i arg1 harg1 arg2 harg2 X k acc
      = k0_pay2 k acc (View.readAt (Elt F) arg1.view
          (Rect.unit (s := S128x32768) (k0_off1 k) S128x1024.size (k0_off1_inb k)).toLoadRect X) := by
  unfold tripR_k0_t1 trip_k0_t1
  rfl

end AnyF

/-- The 1024 columns trip `k` loads from a block `x`, at (r, e): the block at (r, 1024·k + e). -/
theorem chunk_apply (x : Vec Ideal S128x32768 .f32) (k : Fin k0_t1_loop.trips) (r : Fin 128) (e : Fin 1024)
    (he : 1024 * k.val + e.val < 32768) :
    View.ld x (Rect.unit (s := S128x32768) (k0_off1 k) S128x1024.size (k0_off1_inb k)) (ix2 r e)
      = x (ix2 r ⟨1024 * k.val + e.val, he⟩) := by
  refine congrArg x (funext fun a => Fin.ext ?_)
  have hoff := k0_off1_eq k
  match a with
  | ⟨0, _⟩ =>
    show k0_off1 k 0 + 1 * r.val = r.val
    rw [hoff]; show 0 + 1 * r.val = r.val; omega
  | ⟨1, _⟩ =>
    show k0_off1 k 1 + 1 * e.val = 1024 * k.val + e.val
    rw [hoff]; show 1024 * k.val + 1 * e.val = 1024 * k.val + e.val; omega

/-- A select on "the words are equal" picks its first value exactly when they are. -/
theorem select_cmpi_eq {α : Type} (a b : BitVec 32) (u v : α) :
    Scalar.select (IntOp.cmpi .eq a b) u v = if a = b then u else v := by
  unfold Scalar.select
  by_cases h : a = b
  · rw [if_pos h]; exact if_pos (IntOp.cmpi_eq.2 h)
  · rw [if_neg h]; exact if_neg fun h1 => h (IntOp.cmpi_eq.1 h1)

/-- Trip `k`'s payload at (r, q): column `k` receives row r's maximum over the trip's 1024 columns, every other
    column keeps the carried value. -/
theorem pay2_apply (x : Vec Ideal S128x32768 .f32) (k : Fin k0_t1_loop.trips) (acc : FVec Ideal S128x32 .f32)
    (r : Fin 128) (q : Fin 32) :
    k0_pay2 k acc (View.ld x (Rect.unit (s := S128x32768) (k0_off1 k) S128x1024.size (k0_off1_inb k))) (ix2 r q)
      = if q.val = k.val then bin (rowOf x r) 1024 (k.val * 1024) else acc (ix2 r q) := by
  have hk : k.val < 32 := Nat.lt_of_lt_of_le k.isLt k0_t1_abs.2.1
  unfold k0_pay2
  dsimp only
  rw [select_apply]
  show Scalar.select (IntOp.cmpi .eq (iota .tc S128x32 32 [1] iota_S128x32_d1_w32 (ix2 r q)) (Scf.iv 0#32 1#32 k.val)) _ _ = _
  rw [iota_single_apply, select_cmpi_eq]
  have hiv : Scf.iv (0#32) (1#32) k.val = BitVec.ofNat 32 k.val := by
    unfold Scf.iv; simp
  rw [hiv]
  have hq : ((ix2 r q : S128x32.Idx) 1).val = q.val := rfl
  rw [hq]
  by_cases hqk : q.val = k.val
  · rw [if_pos hqk, if_pos (by rw [hqk])]
    rw [Cert.LibRows.broadcastTo_a1_ab_apply, shapeCast_self, Cert.LibRows.shapeCast_a_a1_apply]
    refine (Cert.LibRows.rowMax_apply (a := 128) (b := 1024) _ _ reduces_S128x1024_S128 _ _ r).trans ?_
    rw [ninf]
    unfold bin
    refine congrArg (fun f => Finset.fold max ⊥ f (Finset.univ : Finset (Fin 1024))) (funext fun e => ?_)
    have he : 1024 * k.val + e.val < 32768 := by have := e.isLt; omega
    rw [chunk_apply x k r e he, rowOf_lt x r _ (by omega)]
    exact congrArg x (congrArg (ix2 r) (Fin.ext (by show 1024 * k.val + e.val = k.val * 1024 + e.val; omega)))
  · rw [if_neg hqk, if_neg]
    intro h
    have := congrArg BitVec.toNat h
    simp only [BitVec.toNat_ofNat] at this
    have hq32 := q.isLt
    omega

/-- Before trip `n` the carried array holds, in row r, the bins of the columns below `n` and -∞ in the others. -/
theorem carried_apply (c : Dev nD) (i : grid0.Coords) (arg1 : Memref sig .tc .vmem S128x32768 .f32) (harg1 : arg1.IsWhole)
    (arg2 : Memref sig .tc .vmem S128x63 .f32) (harg2 : arg2.IsWhole) (x : Vec Ideal S128x32768 .f32) :
    ∀ (n : ℕ), n ≤ 32 → ∀ (r : Fin 128) (q : Fin 32),
      st_k0_t1 (F := Ideal) Variants.none c none i arg1 harg1 arg2 harg2 (harg1.unread x) k0_pay1 n (ix2 r q)
        = if q.val < n then bin (rowOf x r) 1024 (q.val * 1024) else (⊥ : EReal)
  | 0, _, r, q => by
    rw [if_neg (Nat.not_lt_zero _)]
    exact ninf
  | n + 1, hn, r, q => by
    have hlt : n < k0_t1_loop.trips := by rw [trips_eq]; omega
    refine (congrFun (st_k0_t1_succ (F := Ideal) Variants.none c none i arg1 harg1 arg2 harg2 (harg1.unread x) k0_pay1 ⟨n, hlt⟩)
      (ix2 r q)).trans ?_
    rw [trip_eq, View.readAt_eq_ld, harg1.read_unread, pay2_apply]
    show (if q.val = n then bin (rowOf x r) 1024 (n * 1024)
      else st_k0_t1 (F := Ideal) Variants.none c none i arg1 harg1 arg2 harg2 (harg1.unread x) k0_pay1 n (ix2 r q)) = _
    rw [carried_apply c i arg1 harg1 arg2 harg2 x n (by omega) r q]
    by_cases h1 : q.val = n
    · rw [if_pos h1, if_pos (by omega), h1]
    · rw [if_neg h1]
      by_cases h2 : q.val < n
      · rw [if_pos h2, if_pos (by omega)]
      · rw [if_neg h2, if_neg (by omega)]

/-- After the last trip every column holds its bin: (r, q) is the maximum of columns 1024·q … 1024·q + 1023 of row r. -/
theorem finest_apply (c : Dev nD) (i : grid0.Coords) (arg1 : Memref sig .tc .vmem S128x32768 .f32) (harg1 : arg1.IsWhole)
    (arg2 : Memref sig .tc .vmem S128x63 .f32) (harg2 : arg2.IsWhole) (x : Vec Ideal S128x32768 .f32) (r : Fin 128) (q : Fin 32) :
    st_k0_t1 (F := Ideal) Variants.none c none i arg1 harg1 arg2 harg2 (harg1.unread x) k0_pay1 k0_t1_loop.trips (ix2 r q)
      = bin (rowOf x r) 1024 (q.val * 1024) := by
  rw [trips_eq, carried_apply c i arg1 harg1 arg2 harg2 x 32 (le_refl _) r q, if_pos q.isLt]

end Cert.KernelIdeal.Pool

end
-- ==== Proof.LibCols.lean ====
/-
  General lemmas about matrices cut and joined along their columns, read at an entry; all sizes arbitrary.

  * A unit-stride slice of columns `o … o + b - 1` of `[n, B]` reads, at `(r, k)`, the matrix at `(r, o + k)`.
  * A matrix `[n, c]` with `c = a · b` reshaped to `[n, a, b]` reads, at `(r, j, k)`, the matrix at `(r, j · b + k)`.
  * A vector `[n]` broadcast (`broadcast_in_dim`, dims = [0]) to a column `[n, 1]` reads, at `(r, ·)`, the vector at `r`.
  * The host's reduction with a maximum body along the columns of `[n, b]`, at row `r`, is the fold of `max` over
    the row from the initial value (the rank-2 companion of LibRows' rank-3 form).
  * Two matrices `[n, q]` and `[n, 1]` joined along columns read in the first `q` columns as the first and in the
    last column as the second.
  * A matrix `[n, b]` with `b = 2 · a` reshaped to `[n, a, 2]` and reduced by a lane maximum along the last axis
    reads, at `(r, j)`, the fold of `max` over the two entries `(r, 2j)`, `(r, 2j + 1)` from the accumulator's value.
-/
import Idealize.ShloMosaic.Lib.Pipeline.Value
import Idealize.ShloMosaic.Lib.ValueIdx
import Idealize.ShloMosaic.PureOps.Ideal.Laws
import proofs.«166121_j23235773071814_2_alg».proof.Proof.LibRows

noncomputable section

namespace Cert.LibCols

open Idealize.ShloMosaic Idealize.ShloMosaic.ValueIdx

variable {α : Type}

/-- A slice of `b` columns from column `o` reads, at `(r, k)`, the matrix at `(r, o + k)`. -/
theorem slice_cols_apply {n B b o : ℕ} (x : (⟨2, ![n, B]⟩ : Shape).Idx → α)
    (h : (⟨2, ![n, B]⟩ : Shape).Slices ![0, o] ⟨2, ![n, b]⟩) (r : Fin n) (k : Fin b) (hk : o + k.val < B) :
    extractStridedSlice ⟨2, ![n, b]⟩ ![0, o] x h (ix2 r k) = x (ix2 r ⟨o + k.val, hk⟩) :=
  extractStridedSlice_apply ![0, o] x h (ix2 r k) (ix2 r ⟨o + k.val, hk⟩) fun a => match a with
    | ⟨0, _⟩ => by show r.val = 0 + r.val; omega
    | ⟨1, _⟩ => rfl

/-- `[n, c]` reshaped to `[n, a, b]` (`c = a · b`) reads, at `(r, j, k)`, the matrix at `(r, j · b + k)`. -/
theorem reshape_rows_apply {n a b c : ℕ} (hc : c = a * b) (x : (⟨2, ![n, c]⟩ : Shape).Idx → α)
    (h : (⟨2, ![n, c]⟩ : Shape).ShapeCasts ⟨3, ![n, a, b]⟩) (r : Fin n) (j : Fin a) (k : Fin b)
    (hjk : j.val * b + k.val < c) :
    shapeCast ⟨3, ![n, a, b]⟩ x h (ix3 r j k) = x (ix2 r ⟨j.val * b + k.val, hjk⟩) :=
  shapeCast_apply x h (ix3 r j k) (ix2 r ⟨j.val * b + k.val, hjk⟩) (by
    rw [Shape.rowMajor_val_two, Shape.rowMajor_val_three]
    show r.val * c + (j.val * b + k.val) = (r.val * a + j.val) * b + k.val
    rw [hc]; ring)

/-- A vector broadcast to a column reads, at `(r, u)`, the vector at `r`. -/
theorem bcast_col_apply {n : ℕ} (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) :=
  broadcastInDim_apply ![0] h v (ix2 r u) (ix1 r) fun a => match a with
    | ⟨0, _⟩ => by
      show r.val = if n = 1 then 0 else r.val
      split
      · have := r.isLt; omega
      · rfl

/-- Reducing `[n, b]` along its columns by the host: row `r` with coordinate `k` put back is `(r, k)`; so the
    maximum-reduce at row `r` is the fold of `max` over the row from the initial value. -/
theorem hostRowMax2_apply {φ : FTy} {n b : ℕ} {u : Shape} (x : FVec Ideal ⟨2, ![n, b]⟩ φ) (init : u.Idx → Ideal φ)
    (h' : (⟨2, ![n, b]⟩ : Shape).ReducesTo [1] (⟨1, ![n]⟩ : Shape))
    (h : (⟨2, ![n, b]⟩ : Shape).Reduces [1] (⟨1, ![n]⟩ : Shape)) (hu : 0 < u.numel) (r : Fin n) :
    Host.reduce FloatOps.maximumf x init h' hu (ix1 r)
      = (Finset.univ : Finset (Fin b)).fold max (init (Shape.Idx.first hu)) fun k => x (ix2 r k) := by
  rw [Host.reduce_eq_fold_single FloatOps.maximumf x init h' h hu]
  exact congrArg (fun f => Finset.fold max (init (Shape.Idx.first hu)) f (Finset.univ : Finset (Fin b)))
    (funext fun k => congrArg x (Cert.LibRows.lift_row h r k))

/-- `[n, q]` and `[n, 1]` joined along columns: a column below `q` reads the first piece there. -/
theorem cat_cols_left {n q p : ℕ} (A : (⟨2, ![n, q]⟩ : Shape).Idx → α) (B : (⟨2, ![n, 1]⟩ : Shape).Idx → α)
    (h : Shape.Concatenates [(⟨2, ![n, q]⟩ : Shape), ⟨2, ![n, 1]⟩] ⟨2, ![n, p]⟩ 1) (r : Fin n) (c : Fin p) (hc : c.val < q) :
    concatenate ⟨2, ![n, p]⟩ 1 [⟨⟨2, ![n, q]⟩, A⟩, ⟨⟨2, ![n, 1]⟩, B⟩] h (ix2 r c) = A (ix2 r ⟨c.val, hc⟩) :=
  concatenate_pair_apply_left (1 : Fin 2) A B h (ix2 r c) rfl (ix2 r ⟨c.val, hc⟩) fun b => match b with
    | ⟨0, _⟩ => rfl
    | ⟨1, _⟩ => rfl

/-- `[n, q]` and `[n, 1]` joined along columns: column `q` reads the second piece. -/
theorem cat_cols_right {n q p : ℕ} (A : (⟨2, ![n, q]⟩ : Shape).Idx → α) (B : (⟨2, ![n, 1]⟩ : Shape).Idx → α)
    (h : Shape.Concatenates [(⟨2, ![n, q]⟩ : Shape), ⟨2, ![n, 1]⟩] ⟨2, ![n, p]⟩ 1) (r : Fin n) (c : Fin p) (hc : c.val = q) :
    concatenate ⟨2, ![n, p]⟩ 1 [⟨⟨2, ![n, q]⟩, A⟩, ⟨⟨2, ![n, 1]⟩, B⟩] h (ix2 r c) = B (ix2 r (0 : Fin 1)) :=
  concatenate_pair_apply_right (1 : Fin 2) A B h (ix2 r c) rfl rfl (ix2 r (0 : Fin 1))
    (fun b hb => match b, hb with
      | ⟨0, _⟩, _ => rfl
      | ⟨1, _⟩, hb => absurd rfl hb)
    (by show 0 + q = c.val; omega)

/-- The pairwise lane maximum: `[n, b]` (`b = 2 · a`) viewed `[n, a, 2]` and reduced along the last axis reads, at
    `(r, j)`, the fold of `max` over entries `(r, 2j)` and `(r, 2j + 1)` from the accumulator's value. -/
theorem pairMax_apply {φ : FTy} {n a b : ℕ} (hb : b = 2 * a) (v : FVec Ideal ⟨2, ![n, b]⟩ φ)
    (hc : (⟨2, ![n, b]⟩ : Shape).ShapeCasts ⟨3, ![n, a, 2]⟩) (acc : BitVec φ.bits)
    (h : (⟨3, ![n, a, 2]⟩ : Shape).Reduces [2] (⟨2, ![n, a]⟩ : Shape)) (hφ : FKind.Formats φ)
    (hacc : acc = FKind.maximumf.neutral φ hφ) (r : Fin n) (j : Fin a) :
    multiReduction .maximumf [2] ⟨2, ![n, a]⟩ (shapeCast ⟨3, ![n, a, 2]⟩ v hc) acc h hφ hacc (ix2 r j)
      = (Finset.univ : Finset (Fin 2)).fold max (Ideal.ofBits φ acc)
          fun k => v (ix2 r ⟨2 * j.val + k.val, by have := j.isLt; have := k.isLt; omega⟩) := by
  rw [Ideal.multiReduction_maximumf_single]
  refine congrArg (fun f => Finset.fold max (Ideal.ofBits φ acc) f (Finset.univ : Finset (Fin 2))) (funext fun k => ?_)
  show shapeCast ⟨3, ![n, a, 2]⟩ v hc (h.lift (ix2 r j) k) = _
  rw [Cert.LibRows.lift_row3 h r j k]
  exact (reshape_rows_apply (by omega) v hc r j ⟨k.val, k.isLt⟩ (by have := j.isLt; have := k.isLt; omega)).trans
    (congrArg v (congrArg (ix2 r) (Fin.ext (by show j.val * 2 + k.val = 2 * j.val + k.val; omega))))

end Cert.LibCols

end
-- ==== Proof.Pool6.lean ====
/-
  Six arrays of bin maxima, one per scale, joined along columns are the pooled matrix.

  If, in row r, the array of scale p holds at column j the maximum of bin j of width 32768 / p, then the [n, 63]
  concatenation of the scales 1, 2, 4, 8, 16, 32 holds at (r, c) pooled entry c of the row: the column's range names
  the scale, its position inside the range names the bin. Both programs end with exactly this concatenation (the
  kernel on a block of 128 rows, the reference on all 2048), so this is where each of them meets the specification.
-/
import proofs.«166121_j23235773071814_2_alg».proof.Proof.BinMax
import Idealize.ShloMosaic.Lib.Pipeline.Value
import Idealize.ShloMosaic.Lib.ValueIdx

noncomputable section

namespace Cert.Pool6

open Idealize.ShloMosaic Idealize.ShloMosaic.ValueIdx Cert.BinMax

variable {α : Type}

/-- A concatenation of matrices along columns, at `(r, c)`: the piece whose columns span `pre … pre + d - 1`
    holds `c`, and is read at `(r, c - pre)`. -/
theorem cat_cols_piece {n T : ℕ} (xs : List ((s : Shape) × (s.Idx → α)))
    (h : Shape.Concatenates (xs.map (·.1)) ⟨2, ![n, T]⟩ 1) (r : Fin n) (c : Fin T)
    (k : ℕ) (hk : k < xs.length) (d : ℕ) (x₁ : (⟨2, ![n, d]⟩ : Shape).Idx → α) (hxk : xs[k] = ⟨⟨2, ![n, d]⟩, x₁⟩)
    (pre : ℕ)
    (hpre : (((xs.take k).map (·.1)).map fun s : Shape =>
      if h : s.rank = (⟨2, ![n, T]⟩ : Shape).rank then s.size ((1 : Fin 2).cast h.symm) else 0).sum = pre)
    (hlo : pre ≤ c.val) (hhi : c.val - pre < d) :
    concatenate ⟨2, ![n, T]⟩ 1 xs h (ix2 r c) = x₁ (ix2 r ⟨c.val - pre, hhi⟩) :=
  concatenate_apply_piece (1 : Fin 2) xs h (ix2 r c) k hk _ x₁ hxk rfl pre hpre (ix2 r ⟨c.val - pre, hhi⟩)
    (fun b hb => match b, hb with
      | ⟨0, _⟩, _ => rfl
      | ⟨1, _⟩, hb => absurd rfl hb)
    (by show pre + (c.val - pre) = c.val; omega)

/-- The six scales side by side are the pooled row. -/
theorem cat6_pooled {n : ℕ} (f : ℕ → EReal) (r : Fin n)
    (a1 : (⟨2, ![n, 1]⟩ : Shape).Idx → EReal) (a2 : (⟨2, ![n, 2]⟩ : Shape).Idx → EReal)
    (a4 : (⟨2, ![n, 4]⟩ : Shape).Idx → EReal) (a8 : (⟨2, ![n, 8]⟩ : Shape).Idx → EReal)
    (a16 : (⟨2, ![n, 16]⟩ : Shape).Idx → EReal) (a32 : (⟨2, ![n, 32]⟩ : Shape).Idx → EReal)
    (h : Shape.Concatenates [(⟨2, ![n, 1]⟩ : Shape), ⟨2, ![n, 2]⟩, ⟨2, ![n, 4]⟩, ⟨2, ![n, 8]⟩, ⟨2, ![n, 16]⟩, ⟨2, ![n, 32]⟩]
      ⟨2, ![n, 63]⟩ 1)
    (h1 : ∀ j : Fin 1, a1 (ix2 r j) = bin f 32768 (j.val * 32768))
    (h2 : ∀ j : Fin 2, a2 (ix2 r j) = bin f 16384 (j.val * 16384))
    (h4 : ∀ j : Fin 4, a4 (ix2 r j) = bin f 8192 (j.val * 8192))
    (h8 : ∀ j : Fin 8, a8 (ix2 r j) = bin f 4096 (j.val * 4096))
    (h16 : ∀ j : Fin 16, a16 (ix2 r j) = bin f 2048 (j.val * 2048))
    (h32 : ∀ j : Fin 32, a32 (ix2 r j) = bin f 1024 (j.val * 1024))
    (c : Fin 63) :
    concatenate ⟨2, ![n, 63]⟩ 1
      [⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩]
      h (ix2 r c) = pooled f c.val := by
  have hc := c.isLt
  unfold pooled
  by_cases c1 : c.val < 1
  · rw [if_pos c1, cat_cols_piece ([⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩] : List ((s : Shape) × (s.Idx → EReal))) h r c 0 (by simp) 1 a1 rfl 0 rfl (by omega) (by omega), h1]
    rfl
  rw [if_neg c1]
  by_cases c3 : c.val < 3
  · rw [if_pos c3, cat_cols_piece ([⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩] : List ((s : Shape) × (s.Idx → EReal))) h r c 1 (by simp) 2 a2 rfl 1 rfl (by omega) (by omega), h2]
  rw [if_neg c3]
  by_cases c7 : c.val < 7
  · rw [if_pos c7, cat_cols_piece ([⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩] : List ((s : Shape) × (s.Idx → EReal))) h r c 2 (by simp) 4 a4 rfl 3 rfl (by omega) (by omega), h4]
  rw [if_neg c7]
  by_cases c15 : c.val < 15
  · rw [if_pos c15, cat_cols_piece ([⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩] : List ((s : Shape) × (s.Idx → EReal))) h r c 3 (by simp) 8 a8 rfl 7 rfl (by omega) (by omega), h8]
  rw [if_neg c15]
  by_cases c31 : c.val < 31
  · rw [if_pos c31, cat_cols_piece ([⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩] : List ((s : Shape) × (s.Idx → EReal))) h r c 4 (by simp) 16 a16 rfl 15 rfl (by omega) (by omega), h16]
  rw [if_neg c31, cat_cols_piece ([⟨⟨2, ![n, 1]⟩, a1⟩, ⟨⟨2, ![n, 2]⟩, a2⟩, ⟨⟨2, ![n, 4]⟩, a4⟩, ⟨⟨2, ![n, 8]⟩, a8⟩, ⟨⟨2, ![n, 16]⟩, a16⟩, ⟨⟨2, ![n, 32]⟩, a32⟩] : List ((s : Shape) × (s.Idx → EReal))) h r c 5 (by simp) 32 a32 rfl 31 rfl (by omega) (by omega), h32]

end Cert.Pool6

end
-- ==== Proof.KernelBlock.lean ====
/-
  What the kernel's body leaves in a block of the result: the pooled matrix of the block of the argument it was given.

  The body's one store covers the whole [128, 63] staging buffer with the concatenation, along columns, of six arrays:
  the 32 finest bins the loop left, and five coarser scales, each obtained from the next finer one by viewing its
  [128, 2a] array as [128, a, 2] and taking the maximum along the last axis — bin j of the coarser scale is the larger of
  bins 2j and 2j + 1 of the finer one, which is the bin of twice the width they make up (`fold_pair_bin`). So scale by
  scale every array holds bin maxima of the block's rows, and the concatenation is the pooled block (`cat6_pooled`).
-/
import proofs.«166121_j23235773071814_2_alg».proof.Proof.KernelFinest
import proofs.«166121_j23235773071814_2_alg».proof.Proof.LibCols
import proofs.«166121_j23235773071814_2_alg».proof.Proof.Pool6

noncomputable section

namespace Cert.KernelIdeal.Pool

open Cert.KernelIdeal Cert.KernelIdeal.Gen Cert.BinMax
open Idealize.ShloMosaic Idealize.ShloMosaic.ValueIdx Idealize.ShloMosaic.TcCoe Idealize.SL.Sem

theorem hz : (![0, 0] : Fin 2 → Nat) = fun _ => 0 := funext fun a => by fin_cases a <;> rfl

section AnyF
variable {F : FTy → Type} [FloatOps F]

/-- The body's one covering store leaves its payload: the concatenation built from the loop's carried value after
    the last trip. -/
theorem out_eq (c : Dev nD) (i : grid0.Coords) (arg1 : Memref sig .tc .vmem S128x32768 .f32) (harg1 : arg1.IsWhole)
    (arg2 : Memref sig .tc .vmem S128x63 .f32) (harg2 : arg2.IsWhole) (x : Vec F S128x32768 .f32) :
    out0_A_1 c i arg1 harg1 arg2 harg2 x
      = k0_pay3 (st_k0_t1 (F := F) Variants.none c none i arg1 harg1 arg2 harg2 (harg1.unread x) k0_pay1 k0_t1_loop.trips) := by
  unfold out0_A_1
  rw [View.read_writes_eq_canon _ _ _ (cover0_A_1 c i arg1 harg1 arg2 harg2 x)]
  unfold kernelRun0_A
  dsimp only
  rw [View.canon_unit_zero hz]

end AnyF

/-- One coarsening step: if row r of `B` holds at column q bin q of width w, the pairwise maximum of `B` holds at
    column j bin j of width w + w. -/
theorem level_apply {n a b : ℕ} (hb : b = 2 * a) (f : ℕ → EReal) (w : ℕ) (r : Fin n) (B : FVec Ideal ⟨2, ![n, b]⟩ .f32)
    (hc : (⟨2, ![n, b]⟩ : Shape).ShapeCasts ⟨3, ![n, a, 2]⟩)
    (h : (⟨3, ![n, a, 2]⟩ : Shape).Reduces [2] (⟨2, ![n, a]⟩ : Shape)) (hφ : FKind.Formats .f32)
    (hacc : (0xFF800000#32 : BitVec 32) = FKind.maximumf.neutral .f32 hφ)
    (hB : ∀ q : Fin b, B (ix2 r q) = bin f w (q.val * w)) (j : Fin a) :
    multiReduction .maximumf [2] ⟨2, ![n, a]⟩ (shapeCast ⟨3, ![n, a, 2]⟩ B hc) 0xFF800000#32 h hφ hacc (ix2 r j)
      = bin f (w + w) (j.val * (w + w)) := by
  rw [Cert.LibCols.pairMax_apply hb B hc _ h hφ hacc r j, ninf]
  exact fold_pair_bin f w j.val _ fun k => hB _

/-- The body's payload at (r, c): pooled entry c of a row whose 32 finest bins the carried array holds. -/
theorem pay3_apply (B : FVec Ideal S128x32 .f32) (f : ℕ → EReal) (r : Fin 128)
    (hB : ∀ q : Fin 32, B (ix2 r q) = bin f 1024 (q.val * 1024)) (c : Fin 63) :
    k0_pay3 B (ix2 r c) = pooled f c.val := by
  have l16 := fun j => level_apply (n := 128) (a := 16) (b := 32) rfl f 1024 r B shapeCasts_S128x32_S128x16x2
    reduces_S128x16x2_S128x16 (.inl rfl) rfl hB j
  have l8 := fun j => level_apply (n := 128) (a := 8) (b := 16) rfl f 2048 r _ shapeCasts_S128x16_S128x8x2
    reduces_S128x8x2_S128x8 (.inl rfl) rfl l16 j
  have l4 := fun j => level_apply (n := 128) (a := 4) (b := 8) rfl f 4096 r _ shapeCasts_S128x8_S128x4x2
    reduces_S128x4x2_S128x4 (.inl rfl) rfl l8 j
  have l2 := fun j => level_apply (n := 128) (a := 2) (b := 4) rfl f 8192 r _ shapeCasts_S128x4_S128x2x2
    reduces_S128x2x2_S128x2 (.inl rfl) rfl l4 j
  have l1 := fun j => level_apply (n := 128) (a := 1) (b := 2) rfl f 16384 r _ shapeCasts_S128x2_S128x1x2
    reduces_S128x1x2_S128x1 (.inl rfl) rfl l2 j
  unfold k0_pay3
  exact Cert.Pool6.cat6_pooled f r _ _ _ _ _ _ concatenates_S128x1_S128x2_S128x4_S128x8_S128x16_S128x32_S128x63_d1
    l1 l2 l4 l8 l16 hB c

/-- So what the body leaves in the output's staging buffer, given the block `x` of the argument, is the pooled
    matrix of `x`. -/
theorem out_pooled (c : Dev nD) (i : grid0.Coords) (arg1 : Memref sig .tc .vmem S128x32768 .f32) (harg1 : arg1.IsWhole)
    (arg2 : Memref sig .tc .vmem S128x63 .f32) (harg2 : arg2.IsWhole) (x : Vec Ideal S128x32768 .f32) :
    out0_A_1 (F := Ideal) c i arg1 harg1 arg2 harg2 x = G x := by
  rw [out_eq]
  funext y
  obtain ⟨r, cc, rfl⟩ : ∃ (r : Fin 128) (cc : Fin 63), y = ix2 r cc := ⟨y 0, y 1, eq_ix2 y⟩
  rw [G_ix2]
  exact pay3_apply _ (rowOf x r) r (fun q => finest_apply c i arg1 harg1 arg2 harg2 x r q) cc

end Cert.KernelIdeal.Pool

end
-- ==== Proof.KernelArray.lean ====
/-
  From blocks to the whole result array: the kernel's result is the pooled matrix of its argument.

  The grid has 16 points; point t stages rows 128·t … 128·t + 127 of the argument (all 32768 columns) and writes back rows
  128·t … 128·t + 127 of the result (all 63 columns). Pooling is row by row, so the pooled matrix of the staged block is
  the same block of the pooled matrix of the whole argument: what point t writes back is block t of `G` of the argument.
  Every row lies in the block of point ⌊row / 128⌋, so the sixteen blocks cover the result array, which therefore ends
  holding `G` of the argument everywhere.
-/
import proofs.«166121_j23235773071814_2_alg».proof.Proof.Gen.KernelIdeal.Value
import proofs.«166121_j23235773071814_2_alg».proof.Proof.KernelBlock

noncomputable section

namespace Cert.KernelIdeal.Pool

open Cert.KernelIdeal Cert.KernelIdeal.Gen Cert.BinMax
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The printed index maps over the grid: both windows sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the pooled matrix of the argument as the region finds it. -/
theorem flushed_eq (c : Dev nD) (t : Fin cfg0.N) :
    (dats m 0 c).flushed 1 t = ((cfg0.win 1).blk t).view.read (Elt Ideal) (G (R := 2048) (V m c main_arg0)) := by
  rw [Cert.KernelIdeal.Value.flushed1_A, out_pooled]
  obtain ⟨e0, e1, e2, e3⟩ := idx_facts t
  funext y
  have hc : ((((cfg0.win 1).blk t).view.emb y) 1).val = (y 1).val := by
    show win0_1.index t (1 : Fin 2) * 63 + 1 * (y 1).val = (y 1).val
    rw [e3]; omega
  have hr : ((((cfg0.win 1).blk t).view.emb y) 0).val = t.val * 128 + (y 0).val := by
    show win0_1.index t (0 : Fin 2) * 128 + 1 * (y 0).val = _
    rw [e2]; omega
  have hrow : rowOf (R := 128) (W := 32768) (iblk m c 0 t) (y 0)
      = rowOf (R := 2048) (W := 32768) (V m c main_arg0) ((((cfg0.win 1).blk t).view.emb y) 0) := by
    funext n
    unfold rowOf
    by_cases h : n < 32768
    · rw [dif_pos h, dif_pos h]
      show V m c main_arg0 (((cfg0.win 0).blk t).view.emb (ix2 (y 0) ⟨n, h⟩)) = _
      refine congrArg (V m c main_arg0) (funext fun a => Fin.ext ?_)
      match a with
      | ⟨0, _⟩ =>
        show win0_0.index t (0 : Fin 2) * 128 + 1 * (y 0).val = ((((cfg0.win 1).blk t).view.emb y) 0).val
        rw [hr, e0]; omega
      | ⟨1, _⟩ =>
        show win0_0.index t (1 : Fin 2) * 32768 + 1 * n = n
        rw [e1]; omega
    · rw [dif_neg h, dif_neg h]
  show pooled (rowOf (R := 128) (W := 32768) (iblk m c 0 t) (y 0)) (y 1).val
    = pooled (rowOf (R := 2048) (W := 32768) (V m c main_arg0) ((((cfg0.win 1).blk t).view.emb y) 0))
        ((((cfg0.win 1).blk t).view.emb y) 1).val
  rw [hrow, hc]

/-- An index of the result array is in point t's block iff each coordinate is in the block's range on its axis. -/
theorem mem_blk (t : Fin cfg0.N) (i : S2048x63.Idx) :
    i ∈ ((cfg0.win 1).blk t).view.set ↔ ∀ a : Fin 2, win0_1.index t a * S128x63.size a ≤ (i a).val
      ∧ (i a).val < win0_1.index t a * S128x63.size a + S128x63.size a := by
  show i ∈ ((View.whole main_v0).slice (win0_1.rect t)).set ↔ _
  rw [View.set_slice_whole, Rect.mem_set_unit]
  exact Iff.rfl

/-- Every index of the result array is in the block of the point its row falls to. -/
theorem cover (i : S2048x63.Idx) :
    ∃ t : Fin cfg0.N, (cfg0.win 1).flush t = true ∧ i ∈ ((cfg0.win 1).blk t).view.set := by
  have h0 : (i 0).val < 2048 := (i 0).isLt
  have h1 : (i 1).val < 63 := (i 1).isLt
  have hN : cfg0.N = 16 := N_0
  let t : Fin cfg0.N := ⟨(i 0).val / 128, by rw [hN]; omega⟩
  have ht : t.val = (i 0).val / 128 := rfl
  obtain ⟨e0, e1, e2, e3⟩ := idx_facts t
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    rw [e2, ht]; omega
  | ⟨1, _⟩ =>
    show win0_1.index t (1 : Fin 2) * 63 ≤ (i 1).val ∧ (i 1).val < win0_1.index t (1 : Fin 2) * 63 + 63
    rw [e3]; omega

/-- The result array after the run is the pooled matrix of the argument. -/
theorem final (c : Dev nD) : (dats m 0 c).arrAt 1 cfg0.N = G (R := 2048) (m ((c : Thread nD τ).loc main_arg0)) :=
  (dats m 0 c).arrAt_eq_of_cover 1 (G (R := 2048) (V m c main_arg0)) (fun t _ => flushed_eq m c t) cover

/-- The kernel's run, read: the result array at the pooled matrix of the argument, the argument unchanged. -/
theorem run : θ_run defs (onTc (τ := τ) (main (F := Ideal))) ⟨m, fun _ => 0, ρ⟩ fun r => ∀ c : Dev nD,
      r.2.mem ((c : Thread nD τ).loc main_v0) = G (R := 2048) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Pool

end
-- ==== Proof.RefRun.lean ====
/-
  The reference program's run, and what its result buffer holds.

  @main is a straight line of 49 host operations: for each scale p ∈ {1, 2, 4, 8, 16, 32} a short stretch that reads
  only the argument and leaves that scale's [2048, p] array of bin maxima, then one concatenation of the six arrays
  along columns. Every weakly fair execution ends with each buffer at the operations' results folded over the launch
  contents; that fold is then evaluated one stretch at a time, from an arbitrary valuation: a stretch writes its own
  scale's buffers and keeps the argument and the earlier scales' results, so the result buffer ends at the
  concatenation of the six scales, each a function of the argument alone.
-/
import proofs.«166121_j23235773071814_2_alg».proof.ReferenceIdeal
import proofs.«166121_j23235773071814_2_alg».proof.Proof.Gen.ReferenceIdeal
import Idealize.ShloMosaic.Lib.StableHlo.Run

noncomputable section

namespace Cert.ReferenceIdeal.Pool

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The stretch of scale 1. -/
abbrev ops0 : List (HloOp τ sig (Elt F)) :=
  [
    nullary main_cst (constant S_ .f32 0xFF800000#32),
    binary main_arg0 main_cst main_v0 ((fun x v => Host.reduce FloatOps.maximumf x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v0 main_v1 (broadcastInDim S2048x1 ![0] bcast_S2048_S2048x1_0 : (⟨S2048, .f32⟩ : BufTy).Contents (Elt F) → (⟨S2048x1, .f32⟩ : BufTy).Contents (Elt F)) ]

/-- The stretch of scale 2. -/
abbrev ops1 : List (HloOp τ sig (Elt F)) :=
  [
    unary main_arg0 main_v2 ((extractStridedSlice S2048x16384 ![0, 0] · slices_S2048x32768_S2048x16384_0_0) : (⟨S2048x32768, .f32⟩ : BufTy).Contents (Elt F) → (⟨S2048x16384, .f32⟩ : BufTy).Contents (Elt F)),
    reshape main_v2 main_v3 rfl shapeCasts_S2048x16384_S2048x1x16384,
    nullary main_cst_0 (constant S_ .f32 0xFF800000#32),
    binary main_v3 main_cst_0 main_v4 ((fun x v => Host.reduce FloatOps.maximumf x v reducesTo_S2048x1x16384_S2048x1_d2 h_S_) : (⟨S2048x1x16384, .f32⟩ : BufTy).Contents (Elt F) → (⟨S_, .f32⟩ : BufTy).Contents (Elt F) → (⟨S2048x1, .f32⟩ : BufTy).Contents (Elt F)),
    unary main_arg0 main_v5 ((extractStridedSlice S2048x16384 ![0, 16384] · slices_S2048x32768_S2048x16384_0_16384) : (⟨S2048x32768, .f32⟩ : BufTy).Contents (Elt F) → (⟨S2048x16384, .f32⟩ : BufTy).Contents (Elt F)),
    nullary main_cst_1 (constant S_ .f32 0xFF800000#32),
    binary main_v5 main_cst_1 main_v6 ((fun x v => Host.reduce FloatOps.maximumf x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    unary main_v6 main_v7 (broadcastInDim S2048x1 ![0] bcast_S2048_S2048x1_0 : (⟨S2048, .f32⟩ : BufTy).Contents (Elt F) → (⟨S2048x1, .f32⟩ : BufTy).Contents (Elt F)),
    binary main_v4 main_v7 main_v8 ((fun a b => concatenate S2048x2 1 [⟨S2048x1, a⟩, ⟨S2048x1, b⟩] concatenates_S2048x1_S2048x1_S2048x2_d1) : (⟨S2048x1, .f32⟩ : BufTy).Contents (Elt F) → (⟨S2048x1, .f32⟩ : BufTy).Contents (Elt F) → (⟨S2048x2, .f32⟩ : BufTy).Contents (Elt F)) ]

/-- The stretch of scale 4. -/
abbrev ops2 : List (HloOp τ sig (Elt F)) :=
  [
    unary main_arg0 main_v9 ((extractStridedSlice S2048x24576 ![0, 0] · slices_S2048x32768_S2048x24576_0_0) : (⟨S2048x32768, .f32⟩ : BufTy).Contents (Elt F) → (⟨S2048x24576, .f32⟩ : BufTy).Contents (Elt F)),
    reshape main_v9 main_v10 rfl shapeCasts_S2048x24576_S2048x3x8192,
    nullary main_cst_2 (constant S_ .f32 0xFF800000#32),
    binary main_v10 main_cst_2 main_v11 ((fun x v => Host.reduce FloatOps.maximumf x v reducesTo_S2048x3x8192_S2048x3_d2 h_S_) : (⟨S2048x3x8192, .f32⟩ : BufTy).Contents (Elt F) → (⟨S_, .f32⟩ : BufTy).Contents (Elt F) → (⟨S2048x3, .f32⟩ : BufTy).Contents (Elt F)),
    unary main_arg0 main_v12 ((extractStridedSlice S2048x8192 ![0, 24576] · slices_S2048x32768_S2048x8192_0_24576) : (⟨S2048x32768, .f32⟩ : BufTy).Contents (Elt F) → (⟨S2048x8192, .f32⟩ : BufTy).Contents (Elt F)),
    nullary main_cst_3 (constant S_ .f32 0xFF800000#32),
    binary main_v12 main_cst_3 main_v13 ((fun x v => Host.reduce FloatOps.maximumf x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    unary main_v13 main_v14 (broadcastInDim S2048x1 ![0] bcast_S2048_S2048x1_0 : (⟨S2048, .f32⟩ : BufTy).Contents (Elt F) → (⟨S2048x1, .f32⟩ : BufTy).Contents (Elt F)),
    binary main_v11 main_v14 main_v15 ((fun a b => concatenate S2048x4 1 [⟨S2048x3, a⟩, ⟨S2048x1, b⟩] concatenates_S2048x3_S2048x1_S2048x4_d1) : (⟨S2048x3, .f32⟩ : BufTy).Contents (Elt F) → (⟨S2048x1, .f32⟩ : BufTy).Contents (Elt F) → (⟨S2048x4, .f32⟩ : BufTy).Contents (Elt F)) ]

/-- The stretch of scale 8. -/
abbrev ops3 : List (HloOp τ sig (Elt F)) :=
  [
    unary main_arg0 main_v16 ((extractStridedSlice S2048x28672 ![0, 0] · slices_S2048x32768_S2048x28672_0_0) : (⟨S2048x32768, .f32⟩ : BufTy).Contents (Elt F) → (⟨S2048x28672, .f32⟩ : BufTy).Contents (Elt F)),
    reshape main_v16 main_v17 rfl shapeCasts_S2048x28672_S2048x7x4096,
    nullary main_cst_4 (constant S_ .f32 0xFF800000#32),
    binary main_v17 main_cst_4 main_v18 ((fun x v => Host.reduce FloatOps.maximumf x v reducesTo_S2048x7x4096_S2048x7_d2 h_S_) : (⟨S2048x7x4096, .f32⟩ : BufTy).Contents (Elt F) → (⟨S_, .f32⟩ : BufTy).Contents (Elt F) → (⟨S2048x7, .f32⟩ : BufTy).Contents (Elt F)),
    unary main_arg0 main_v19 ((extractStridedSlice S2048x4096 ![0, 28672] · slices_S2048x32768_S2048x4096_0_28672) : (⟨S2048x32768, .f32⟩ : BufTy).Contents (Elt F) → (⟨S2048x4096, .f32⟩ : BufTy).Contents (Elt F)),
    nullary main_cst_5 (constant S_ .f32 0xFF800000#32),
    binary main_v19 main_cst_5 main_v20 ((fun x v => Host.reduce FloatOps.maximumf x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    unary main_v20 main_v21 (broadcastInDim S2048x1 ![0] bcast_S2048_S2048x1_0 : (⟨S2048, .f32⟩ : BufTy).Contents (Elt F) → (⟨S2048x1, .f32⟩ : BufTy).Contents (Elt F)),
    binary main_v18 main_v21 main_v22 ((fun a b => concatenate S2048x8 1 [⟨S2048x7, a⟩, ⟨S2048x1, b⟩] concatenates_S2048x7_S2048x1_S2048x8_d1) : (⟨S2048x7, .f32⟩ : BufTy).Contents (Elt F) → (⟨S2048x1, .f32⟩ : BufTy).Contents (Elt F) → (⟨S2048x8, .f32⟩ : BufTy).Contents (Elt F)) ]

/-- The stretch of scale 16. -/
abbrev ops4 : List (HloOp τ sig (Elt F)) :=
  [
    unary main_arg0 main_v23 ((extractStridedSlice S2048x30720 ![0, 0] · slices_S2048x32768_S2048x30720_0_0) : (⟨S2048x32768, .f32⟩ : BufTy).Contents (Elt F) → (⟨S2048x30720, .f32⟩ : BufTy).Contents (Elt F)),
    reshape main_v23 main_v24 rfl shapeCasts_S2048x30720_S2048x15x2048,
    nullary main_cst_6 (constant S_ .f32 0xFF800000#32),
    binary main_v24 main_cst_6 main_v25 ((fun x v => Host.reduce FloatOps.maximumf x v reducesTo_S2048x15x2048_S2048x15_d2 h_S_) : (⟨S2048x15x2048, .f32⟩ : BufTy).Contents (Elt F) → (⟨S_, .f32⟩ : BufTy).Contents (Elt F) → (⟨S2048x15, .f32⟩ : BufTy).Contents (Elt F)),
    unary main_arg0 main_v26 ((extractStridedSlice S2048x2048 ![0, 30720] · slices_S2048x32768_S2048x2048_0_30720) : (⟨S2048x32768, .f32⟩ : BufTy).Contents (Elt F) → (⟨S2048x2048, .f32⟩ : BufTy).Contents (Elt F)),
    nullary main_cst_7 (constant S_ .f32 0xFF800000#32),
    binary main_v26 main_cst_7 main_v27 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v27 main_v28 (broadcastInDim S2048x1 ![0] bcast_S2048_S2048x1_0 : (⟨S2048, .f32⟩ : BufTy).Contents (Elt F) → (⟨S2048x1, .f32⟩ : BufTy).Contents (Elt F)),
    binary main_v25 main_v28 main_v29 ((fun a b => concatenate S2048x16 1 [⟨S2048x15, a⟩, ⟨S2048x1, b⟩] concatenates_S2048x15_S2048x1_S2048x16_d1) : (⟨S2048x15, .f32⟩ : BufTy).Contents (Elt F) → (⟨S2048x1, .f32⟩ : BufTy).Contents (Elt F) → (⟨S2048x16, .f32⟩ : BufTy).Contents (Elt F)) ]

/-- The stretch of scale 32. -/
abbrev ops5 : List (HloOp τ sig (Elt F)) :=
  [
    unary main_arg0 main_v30 ((extractStridedSlice S2048x31744 ![0, 0] · slices_S2048x32768_S2048x31744_0_0) : (⟨S2048x32768, .f32⟩ : BufTy).Contents (Elt F) → (⟨S2048x31744, .f32⟩ : BufTy).Contents (Elt F)),
    reshape main_v30 main_v31 rfl shapeCasts_S2048x31744_S2048x31x1024,
    nullary main_cst_8 (constant S_ .f32 0xFF800000#32),
    binary main_v31 main_cst_8 main_v32 ((fun x v => Host.reduce FloatOps.maximumf x v reducesTo_S2048x31x1024_S2048x31_d2 h_S_) : (⟨S2048x31x1024, .f32⟩ : BufTy).Contents (Elt F) → (⟨S_, .f32⟩ : BufTy).Contents (Elt F) → (⟨S2048x31, .f32⟩ : BufTy).Contents (Elt F)),
    unary main_arg0 main_v33 ((extractStridedSlice S2048x1024 ![0, 31744] · slices_S2048x32768_S2048x1024_0_31744) : (⟨S2048x32768, .f32⟩ : BufTy).Contents (Elt F) → (⟨S2048x1024, .f32⟩ : BufTy).Contents (Elt F)),
    nullary main_cst_9 (constant S_ .f32 0xFF800000#32),
    binary main_v33 main_cst_9 main_v34 ((fun x v => Host.reduce FloatOps.maximumf x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v34 main_v35 (broadcastInDim S2048x1 ![0] bcast_S2048_S2048x1_0 : (⟨S2048, .f32⟩ : BufTy).Contents (Elt F) → (⟨S2048x1, .f32⟩ : BufTy).Contents (Elt F)),
    binary main_v32 main_v35 main_v36 ((fun a b => concatenate S2048x32 1 [⟨S2048x31, a⟩, ⟨S2048x1, b⟩] concatenates_S2048x31_S2048x1_S2048x32_d1) : (⟨S2048x31, .f32⟩ : BufTy).Contents (Elt F) → (⟨S2048x1, .f32⟩ : BufTy).Contents (Elt F) → (⟨S2048x32, .f32⟩ : BufTy).Contents (Elt F)) ]

/-- The closing concatenation. -/
abbrev ops6 : List (HloOp τ sig (Elt F)) :=
  [
    nary ![main_v1, main_v8, main_v15, main_v22, main_v29, main_v36] main_v37 (fun u => concatenate S2048x63 1 [⟨S2048x1, u 0⟩, ⟨S2048x2, u 1⟩, ⟨S2048x4, u 2⟩, ⟨S2048x8, u 3⟩, ⟨S2048x16, u 4⟩, ⟨S2048x32, u 5⟩] concatenates_S2048x1_S2048x2_S2048x4_S2048x8_S2048x16_S2048x32_S2048x63_d1) ]

/-- @main's operations, in order. -/
abbrev ops : List (HloOp τ sig (Elt F)) :=
  [
    nullary main_cst (constant S_ .f32 0xFF800000#32),
    binary main_arg0 main_cst main_v0 ((fun x v => Host.reduce FloatOps.maximumf x v reducesTo_S2048x32768_S2048_d1 h_S_) : (⟨S2048x32768, .f32⟩ : BufTy).Contents (Elt F) → (⟨S_, .f32⟩ : BufTy).Contents (Elt F) → (⟨S2048, .f32⟩ : BufTy).Contents (Elt F)),
    unary main_v0 main_v1 (broadcastInDim S2048x1 ![0] bcast_S2048_S2048x1_0 : (⟨S2048, .f32⟩ : BufTy).Contents (Elt F) → (⟨S2048x1, .f32⟩ : BufTy).Contents (Elt F)),
    unary main_arg0 main_v2 ((extractStridedSlice S2048x16384 ![0, 0] · slices_S2048x32768_S2048x16384_0_0) : (⟨S2048x32768, .f32⟩ : BufTy).Contents (Elt F) → (⟨S2048x16384, .f32⟩ : BufTy).Contents (Elt F)),
    reshape main_v2 main_v3 rfl shapeCasts_S2048x16384_S2048x1x16384,
    nullary main_cst_0 (constant S_ .f32 0xFF800000#32),
    binary main_v3 main_cst_0 main_v4 ((fun x v => Host.reduce FloatOps.maximumf x v reducesTo_S2048x1x16384_S2048x1_d2 h_S_) : (⟨S2048x1x16384, .f32⟩ : BufTy).Contents (Elt F) → (⟨S_, .f32⟩ : BufTy).Contents (Elt F) → (⟨S2048x1, .f32⟩ : BufTy).Contents (Elt F)),
    unary main_arg0 main_v5 ((extractStridedSlice S2048x16384 ![0, 16384] · slices_S2048x32768_S2048x16384_0_16384) : (⟨S2048x32768, .f32⟩ : BufTy).Contents (Elt F) → (⟨S2048x16384, .f32⟩ : BufTy).Contents (Elt F)),
    nullary main_cst_1 (constant S_ .f32 0xFF800000#32),
    binary main_v5 main_cst_1 main_v6 ((fun x v => Host.reduce FloatOps.maximumf x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    unary main_v6 main_v7 (broadcastInDim S2048x1 ![0] bcast_S2048_S2048x1_0 : (⟨S2048, .f32⟩ : BufTy).Contents (Elt F) → (⟨S2048x1, .f32⟩ : BufTy).Contents (Elt F)),
    binary main_v4 main_v7 main_v8 ((fun a b => concatenate S2048x2 1 [⟨S2048x1, a⟩, ⟨S2048x1, b⟩] concatenates_S2048x1_S2048x1_S2048x2_d1) : (⟨S2048x1, .f32⟩ : BufTy).Contents (Elt F) → (⟨S2048x1, .f32⟩ : BufTy).Contents (Elt F) → (⟨S2048x2, .f32⟩ : BufTy).Contents (Elt F)),
    unary main_arg0 main_v9 ((extractStridedSlice S2048x24576 ![0, 0] · slices_S2048x32768_S2048x24576_0_0) : (⟨S2048x32768, .f32⟩ : BufTy).Contents (Elt F) → (⟨S2048x24576, .f32⟩ : BufTy).Contents (Elt F)),
    reshape main_v9 main_v10 rfl shapeCasts_S2048x24576_S2048x3x8192,
    nullary main_cst_2 (constant S_ .f32 0xFF800000#32),
    binary main_v10 main_cst_2 main_v11 ((fun x v => Host.reduce FloatOps.maximumf x v reducesTo_S2048x3x8192_S2048x3_d2 h_S_) : (⟨S2048x3x8192, .f32⟩ : BufTy).Contents (Elt F) → (⟨S_, .f32⟩ : BufTy).Contents (Elt F) → (⟨S2048x3, .f32⟩ : BufTy).Contents (Elt F)),
    unary main_arg0 main_v12 ((extractStridedSlice S2048x8192 ![0, 24576] · slices_S2048x32768_S2048x8192_0_24576) : (⟨S2048x32768, .f32⟩ : BufTy).Contents (Elt F) → (⟨S2048x8192, .f32⟩ : BufTy).Contents (Elt F)),
    nullary main_cst_3 (constant S_ .f32 0xFF800000#32),
    binary main_v12 main_cst_3 main_v13 ((fun x v => Host.reduce FloatOps.maximumf x v reducesTo_S2048x8192_S2048_d1 h_S_) : (⟨S2048x8192, .f32⟩ : BufTy).Contents (Elt F) → (⟨S_, .f32⟩ : BufTy).Contents (Elt F) → (⟨S2048, .f32⟩ : BufTy).Contents (Elt F)),
    unary main_v13 main_v14 (broadcastInDim S2048x1 ![0] bcast_S2048_S2048x1_0 : (⟨S2048, .f32⟩ : BufTy).Contents (Elt F) → (⟨S2048x1, .f32⟩ : BufTy).Contents (Elt F)),
    binary main_v11 main_v14 main_v15 ((fun a b => concatenate S2048x4 1 [⟨S2048x3, a⟩, ⟨S2048x1, b⟩] concatenates_S2048x3_S2048x1_S2048x4_d1) : (⟨S2048x3, .f32⟩ : BufTy).Contents (Elt F) → (⟨S2048x1, .f32⟩ : BufTy).Contents (Elt F) → (⟨S2048x4, .f32⟩ : BufTy).Contents (Elt F)),
    unary main_arg0 main_v16 ((extractStridedSlice S2048x28672 ![0, 0] · slices_S2048x32768_S2048x28672_0_0) : (⟨S2048x32768, .f32⟩ : BufTy).Contents (Elt F) → (⟨S2048x28672, .f32⟩ : BufTy).Contents (Elt F)),
    reshape main_v16 main_v17 rfl shapeCasts_S2048x28672_S2048x7x4096,
    nullary main_cst_4 (constant S_ .f32 0xFF800000#32),
    binary main_v17 main_cst_4 main_v18 ((fun x v => Host.reduce FloatOps.maximumf x v reducesTo_S2048x7x4096_S2048x7_d2 h_S_) : (⟨S2048x7x4096, .f32⟩ : BufTy).Contents (Elt F) → (⟨S_, .f32⟩ : BufTy).Contents (Elt F) → (⟨S2048x7, .f32⟩ : BufTy).Contents (Elt F)),
    unary main_arg0 main_v19 ((extractStridedSlice S2048x4096 ![0, 28672] · slices_S2048x32768_S2048x4096_0_28672) : (⟨S2048x32768, .f32⟩ : BufTy).Contents (Elt F) → (⟨S2048x4096, .f32⟩ : BufTy).Contents (Elt F)),
    nullary main_cst_5 (constant S_ .f32 0xFF800000#32),
    binary main_v19 main_cst_5 main_v20 ((fun x v => Host.reduce FloatOps.maximumf x v reducesTo_S2048x4096_S2048_d1 h_S_) : (⟨S2048x4096, .f32⟩ : BufTy).Contents (Elt F) → (⟨S_, .f32⟩ : BufTy).Contents (Elt F) → (⟨S2048, .f32⟩ : BufTy).Contents (Elt F)),
    unary main_v20 main_v21 (broadcastInDim S2048x1 ![0] bcast_S2048_S2048x1_0 : (⟨S2048, .f32⟩ : BufTy).Contents (Elt F) → (⟨S2048x1, .f32⟩ : BufTy).Contents (Elt F)),
    binary main_v18 main_v21 main_v22 ((fun a b => concatenate S2048x8 1 [⟨S2048x7, a⟩, ⟨S2048x1, b⟩] concatenates_S2048x7_S2048x1_S2048x8_d1) : (⟨S2048x7, .f32⟩ : BufTy).Contents (Elt F) → (⟨S2048x1, .f32⟩ : BufTy).Contents (Elt F) → (⟨S2048x8, .f32⟩ : BufTy).Contents (Elt F)),
    unary main_arg0 main_v23 ((extractStridedSlice S2048x30720 ![0, 0] · slices_S2048x32768_S2048x30720_0_0) : (⟨S2048x32768, .f32⟩ : BufTy).Contents (Elt F) → (⟨S2048x30720, .f32⟩ : BufTy).Contents (Elt F)),
    reshape main_v23 main_v24 rfl shapeCasts_S2048x30720_S2048x15x2048,
    nullary main_cst_6 (constant S_ .f32 0xFF800000#32),
    binary main_v24 main_cst_6 main_v25 ((fun x v => Host.reduce FloatOps.maximumf x v reducesTo_S2048x15x2048_S2048x15_d2 h_S_) : (⟨S2048x15x2048, .f32⟩ : BufTy).Contents (Elt F) → (⟨S_, .f32⟩ : BufTy).Contents (Elt F) → (⟨S2048x15, .f32⟩ : BufTy).Contents (Elt F)),
    unary main_arg0 main_v26 ((extractStridedSlice S2048x2048 ![0, 30720] · slices_S2048x32768_S2048x2048_0_30720) : (⟨S2048x32768, .f32⟩ : BufTy).Contents (Elt F) → (⟨S2048x2048, .f32⟩ : BufTy).Contents (Elt F)),
    nullary main_cst_7 (constant S_ .f32 0xFF800000#32),
    binary main_v26 main_cst_7 main_v27 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v27 main_v28 (broadcastInDim S2048x1 ![0] bcast_S2048_S2048x1_0 : (⟨S2048, .f32⟩ : BufTy).Contents (Elt F) → (⟨S2048x1, .f32⟩ : BufTy).Contents (Elt F)),
    binary main_v25 main_v28 main_v29 ((fun a b => concatenate S2048x16 1 [⟨S2048x15, a⟩, ⟨S2048x1, b⟩] concatenates_S2048x15_S2048x1_S2048x16_d1) : (⟨S2048x15, .f32⟩ : BufTy).Contents (Elt F) → (⟨S2048x1, .f32⟩ : BufTy).Contents (Elt F) → (⟨S2048x16, .f32⟩ : BufTy).Contents (Elt F)),
    unary main_arg0 main_v30 ((extractStridedSlice S2048x31744 ![0, 0] · slices_S2048x32768_S2048x31744_0_0) : (⟨S2048x32768, .f32⟩ : BufTy).Contents (Elt F) → (⟨S2048x31744, .f32⟩ : BufTy).Contents (Elt F)),
    reshape main_v30 main_v31 rfl shapeCasts_S2048x31744_S2048x31x1024,
    nullary main_cst_8 (constant S_ .f32 0xFF800000#32),
    binary main_v31 main_cst_8 main_v32 ((fun x v => Host.reduce FloatOps.maximumf x v reducesTo_S2048x31x1024_S2048x31_d2 h_S_) : (⟨S2048x31x1024, .f32⟩ : BufTy).Contents (Elt F) → (⟨S_, .f32⟩ : BufTy).Contents (Elt F) → (⟨S2048x31, .f32⟩ : BufTy).Contents (Elt F)),
    unary main_arg0 main_v33 ((extractStridedSlice S2048x1024 ![0, 31744] · slices_S2048x32768_S2048x1024_0_31744) : (⟨S2048x32768, .f32⟩ : BufTy).Contents (Elt F) → (⟨S2048x1024, .f32⟩ : BufTy).Contents (Elt F)),
    nullary main_cst_9 (constant S_ .f32 0xFF800000#32),
    binary main_v33 main_cst_9 main_v34 ((fun x v => Host.reduce FloatOps.maximumf x v reducesTo_S2048x1024_S2048_d1 h_S_) : (⟨S2048x1024, .f32⟩ : BufTy).Contents (Elt F) → (⟨S_, .f32⟩ : BufTy).Contents (Elt F) → (⟨S2048, .f32⟩ : BufTy).Contents (Elt F)),
    unary main_v34 main_v35 (broadcastInDim S2048x1 ![0] bcast_S2048_S2048x1_0 : (⟨S2048, .f32⟩ : BufTy).Contents (Elt F) → (⟨S2048x1, .f32⟩ : BufTy).Contents (Elt F)),
    binary main_v32 main_v35 main_v36 ((fun a b => concatenate S2048x32 1 [⟨S2048x31, a⟩, ⟨S2048x1, b⟩] concatenates_S2048x31_S2048x1_S2048x32_d1) : (⟨S2048x31, .f32⟩ : BufTy).Contents (Elt F) → (⟨S2048x1, .f32⟩ : BufTy).Contents (Elt F) → (⟨S2048x32, .f32⟩ : BufTy).Contents (Elt F)),
    nary ![main_v1, main_v8, main_v15, main_v22, main_v29, main_v36] main_v37 (fun u => concatenate S2048x63 1 [⟨S2048x1, u 0⟩, ⟨S2048x2, u 1⟩, ⟨S2048x4, u 2⟩, ⟨S2048x8, u 3⟩, ⟨S2048x16, u 4⟩, ⟨S2048x32, u 5⟩] concatenates_S2048x1_S2048x2_S2048x4_S2048x8_S2048x16_S2048x32_S2048x63_d1) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨nullary_bufs_sub .., binary_bufs_sub .., unary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., unary_bufs_sub .., reshape_bufs_sub .., nullary_bufs_sub .., binary_bufs_sub .., unary_bufs_sub .., nullary_bufs_sub .., binary_bufs_sub .., unary_bufs_sub .., binary_bufs_sub .., nary_bufs_sub ..⟩

/-- The line is its seven stretches one after the other. -/
theorem ops_split : (ops : List (HloOp τ sig (Elt F))) = ops0 ++ (ops1 ++ (ops2 ++ (ops3 ++ (ops4 ++ (ops5 ++ ops6))))) := rfl

/-- Two lines one after the other: the second runs from what the first leaves. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih (op.result W)

/-! ## Each scale as a function of the argument -/

/-- Scale 1: each row's maximum, kept as a column. -/
def scale0 (x : (⟨S2048x32768, .f32⟩ : BufTy).Contents (Elt F)) : (⟨S2048x1, .f32⟩ : BufTy).Contents (Elt F) :=
  broadcastInDim S2048x1 ![0] bcast_S2048_S2048x1_0
    (Host.reduce FloatOps.maximumf x (constant S_ .f32 0xFF800000#32) reducesTo_S2048x32768_S2048_d1 h_S_)

/-- Scale 2: the first 1 bin of width 16384 by one reduction of the reshaped left part, the last bin by a reduction
    of the remaining 16384 columns kept as a column, joined along columns. -/
def scale1 (x : (⟨S2048x32768, .f32⟩ : BufTy).Contents (Elt F)) : (⟨S2048x2, .f32⟩ : BufTy).Contents (Elt F) :=
  concatenate S2048x2 1
    [⟨S2048x1, Host.reduce FloatOps.maximumf
        (shapeCast _ (extractStridedSlice S2048x16384 ![0, 0] x slices_S2048x32768_S2048x16384_0_0) shapeCasts_S2048x16384_S2048x1x16384)
        (constant S_ .f32 0xFF800000#32) reducesTo_S2048x1x16384_S2048x1_d2 h_S_⟩,
     ⟨S2048x1, broadcastInDim S2048x1 ![0] bcast_S2048_S2048x1_0 (Host.reduce FloatOps.maximumf
        (extractStridedSlice S2048x16384 ![0, 16384] x slices_S2048x32768_S2048x16384_0_16384)
        (constant S_ .f32 0xFF800000#32) reducesTo_S2048x16384_S2048_d1 h_S_)⟩]
    concatenates_S2048x1_S2048x1_S2048x2_d1

/-- Scale 4: the first 3 bins of width 8192 by one reduction of the reshaped left part, the last bin by a reduction
    of the remaining 8192 columns kept as a column, joined along columns. -/
def scale2 (x : (⟨S2048x32768, .f32⟩ : BufTy).Contents (Elt F)) : (⟨S2048x4, .f32⟩ : BufTy).Contents (Elt F) :=
  concatenate S2048x4 1
    [⟨S2048x3, Host.reduce FloatOps.maximumf
        (shapeCast _ (extractStridedSlice S2048x24576 ![0, 0] x slices_S2048x32768_S2048x24576_0_0) shapeCasts_S2048x24576_S2048x3x8192)
        (constant S_ .f32 0xFF800000#32) reducesTo_S2048x3x8192_S2048x3_d2 h_S_⟩,
     ⟨S2048x1, broadcastInDim S2048x1 ![0] bcast_S2048_S2048x1_0 (Host.reduce FloatOps.maximumf
        (extractStridedSlice S2048x8192 ![0, 24576] x slices_S2048x32768_S2048x8192_0_24576)
        (constant S_ .f32 0xFF800000#32) reducesTo_S2048x8192_S2048_d1 h_S_)⟩]
    concatenates_S2048x3_S2048x1_S2048x4_d1

/-- Scale 8: the first 7 bins of width 4096 by one reduction of the reshaped left part, the last bin by a reduction
    of the remaining 4096 columns kept as a column, joined along columns. -/
def scale3 (x : (⟨S2048x32768, .f32⟩ : BufTy).Contents (Elt F)) : (⟨S2048x8, .f32⟩ : BufTy).Contents (Elt F) :=
  concatenate S2048x8 1
    [⟨S2048x7, Host.reduce FloatOps.maximumf
        (shapeCast _ (extractStridedSlice S2048x28672 ![0, 0] x slices_S2048x32768_S2048x28672_0_0) shapeCasts_S2048x28672_S2048x7x4096)
        (constant S_ .f32 0xFF800000#32) reducesTo_S2048x7x4096_S2048x7_d2 h_S_⟩,
     ⟨S2048x1, broadcastInDim S2048x1 ![0] bcast_S2048_S2048x1_0 (Host.reduce FloatOps.maximumf
        (extractStridedSlice S2048x4096 ![0, 28672] x slices_S2048x32768_S2048x4096_0_28672)
        (constant S_ .f32 0xFF800000#32) reducesTo_S2048x4096_S2048_d1 h_S_)⟩]
    concatenates_S2048x7_S2048x1_S2048x8_d1

/-- Scale 16: the first 15 bins of width 2048 by one reduction of the reshaped left part, the last bin by a reduction
    of the remaining 2048 columns kept as a column, joined along columns. -/
def scale4 (x : (⟨S2048x32768, .f32⟩ : BufTy).Contents (Elt F)) : (⟨S2048x16, .f32⟩ : BufTy).Contents (Elt F) :=
  concatenate S2048x16 1
    [⟨S2048x15, Host.reduce FloatOps.maximumf
        (shapeCast _ (extractStridedSlice S2048x30720 ![0, 0] x slices_S2048x32768_S2048x30720_0_0) shapeCasts_S2048x30720_S2048x15x2048)
        (constant S_ .f32 0xFF800000#32) reducesTo_S2048x15x2048_S2048x15_d2 h_S_⟩,
     ⟨S2048x1, broadcastInDim S2048x1 ![0] bcast_S2048_S2048x1_0 (Host.reduce FloatOps.maximumf
        (extractStridedSlice S2048x2048 ![0, 30720] x slices_S2048x32768_S2048x2048_0_30720)
        (constant S_ .f32 0xFF800000#32) reducesTo_S2048x2048_S2048_d1 h_S_)⟩]
    concatenates_S2048x15_S2048x1_S2048x16_d1

/-- Scale 32: the first 31 bins of width 1024 by one reduction of the reshaped left part, the last bin by a reduction
    of the remaining 1024 columns kept as a column, joined along columns. -/
def scale5 (x : (⟨S2048x32768, .f32⟩ : BufTy).Contents (Elt F)) : (⟨S2048x32, .f32⟩ : BufTy).Contents (Elt F) :=
  concatenate S2048x32 1
    [⟨S2048x31, Host.reduce FloatOps.maximumf
        (shapeCast _ (extractStridedSlice S2048x31744 ![0, 0] x slices_S2048x32768_S2048x31744_0_0) shapeCasts_S2048x31744_S2048x31x1024)
        (constant S_ .f32 0xFF800000#32) reducesTo_S2048x31x1024_S2048x31_d2 h_S_⟩,
     ⟨S2048x1, broadcastInDim S2048x1 ![0] bcast_S2048_S2048x1_0 (Host.reduce FloatOps.maximumf
        (extractStridedSlice S2048x1024 ![0, 31744] x slices_S2048x32768_S2048x1024_0_31744)
        (constant S_ .f32 0xFF800000#32) reducesTo_S2048x1024_S2048_d1 h_S_)⟩]
    concatenates_S2048x31_S2048x1_S2048x32_d1

/-- All six scales side by side: the reference's result as a function of its argument. -/
def pooledRef (x : (⟨S2048x32768, .f32⟩ : BufTy).Contents (Elt F)) : (⟨S2048x63, .f32⟩ : BufTy).Contents (Elt F) :=
  concatenate S2048x63 1 [⟨S2048x1, scale0 x⟩, ⟨S2048x2, scale1 x⟩, ⟨S2048x4, scale2 x⟩, ⟨S2048x8, scale3 x⟩, ⟨S2048x16, scale4 x⟩, ⟨S2048x32, scale5 x⟩]
    concatenates_S2048x1_S2048x2_S2048x4_S2048x8_S2048x16_S2048x32_S2048x63_d1

/-! ## What each stretch writes, and what it keeps, from any valuation -/

theorem wrote0 (W : Valuation τ sig (Elt F)) :
    after ops0 W (Proc.devRef .tc main_v1) = scale0 (W (Proc.devRef .tc main_arg0)) := by
  after_results; rfl
theorem wrote1 (W : Valuation τ sig (Elt F)) :
    after ops1 W (Proc.devRef .tc main_v8) = scale1 (W (Proc.devRef .tc main_arg0)) := by
  after_results; rfl
theorem wrote2 (W : Valuation τ sig (Elt F)) :
    after ops2 W (Proc.devRef .tc main_v15) = scale2 (W (Proc.devRef .tc main_arg0)) := by
  after_results; rfl
theorem wrote3 (W : Valuation τ sig (Elt F)) :
    after ops3 W (Proc.devRef .tc main_v22) = scale3 (W (Proc.devRef .tc main_arg0)) := by
  after_results; rfl
theorem wrote4 (W : Valuation τ sig (Elt F)) :
    after ops4 W (Proc.devRef .tc main_v29) = scale4 (W (Proc.devRef .tc main_arg0)) := by
  after_results; rfl
theorem wrote5 (W : Valuation τ sig (Elt F)) :
    after ops5 W (Proc.devRef .tc main_v36) = scale5 (W (Proc.devRef .tc main_arg0)) := by
  after_results; rfl

theorem keep0_arg0 (W : Valuation τ sig (Elt F)) :
    after ops0 W (Proc.devRef .tc main_arg0) = W (Proc.devRef .tc main_arg0) := by after_results
theorem keep1_arg0 (W : Valuation τ sig (Elt F)) :
    after ops1 W (Proc.devRef .tc main_arg0) = W (Proc.devRef .tc main_arg0) := by after_results
theorem keep1_v1 (W : Valuation τ sig (Elt F)) :
    after ops1 W (Proc.devRef .tc main_v1) = W (Proc.devRef .tc main_v1) := by after_results
theorem keep2_arg0 (W : Valuation τ sig (Elt F)) :
    after ops2 W (Proc.devRef .tc main_arg0) = W (Proc.devRef .tc main_arg0) := by after_results
theorem keep2_v1 (W : Valuation τ sig (Elt F)) :
    after ops2 W (Proc.devRef .tc main_v1) = W (Proc.devRef .tc main_v1) := by after_results
theorem keep2_v8 (W : Valuation τ sig (Elt F)) :
    after ops2 W (Proc.devRef .tc main_v8) = W (Proc.devRef .tc main_v8) := by after_results
theorem keep3_arg0 (W : Valuation τ sig (Elt F)) :
    after ops3 W (Proc.devRef .tc main_arg0) = W (Proc.devRef .tc main_arg0) := by after_results
theorem keep3_v1 (W : Valuation τ sig (Elt F)) :
    after ops3 W (Proc.devRef .tc main_v1) = W (Proc.devRef .tc main_v1) := by after_results
theorem keep3_v8 (W : Valuation τ sig (Elt F)) :
    after ops3 W (Proc.devRef .tc main_v8) = W (Proc.devRef .tc main_v8) := by after_results
theorem keep3_v15 (W : Valuation τ sig (Elt F)) :
    after ops3 W (Proc.devRef .tc main_v15) = W (Proc.devRef .tc main_v15) := by after_results
theorem keep4_arg0 (W : Valuation τ sig (Elt F)) :
    after ops4 W (Proc.devRef .tc main_arg0) = W (Proc.devRef .tc main_arg0) := by after_results
theorem keep4_v1 (W : Valuation τ sig (Elt F)) :
    after ops4 W (Proc.devRef .tc main_v1) = W (Proc.devRef .tc main_v1) := by after_results
theorem keep4_v8 (W : Valuation τ sig (Elt F)) :
    after ops4 W (Proc.devRef .tc main_v8) = W (Proc.devRef .tc main_v8) := by after_results
theorem keep4_v15 (W : Valuation τ sig (Elt F)) :
    after ops4 W (Proc.devRef .tc main_v15) = W (Proc.devRef .tc main_v15) := by after_results
theorem keep4_v22 (W : Valuation τ sig (Elt F)) :
    after ops4 W (Proc.devRef .tc main_v22) = W (Proc.devRef .tc main_v22) := by after_results
theorem keep5_v1 (W : Valuation τ sig (Elt F)) :
    after ops5 W (Proc.devRef .tc main_v1) = W (Proc.devRef .tc main_v1) := by after_results
theorem keep5_v8 (W : Valuation τ sig (Elt F)) :
    after ops5 W (Proc.devRef .tc main_v8) = W (Proc.devRef .tc main_v8) := by after_results
theorem keep5_v15 (W : Valuation τ sig (Elt F)) :
    after ops5 W (Proc.devRef .tc main_v15) = W (Proc.devRef .tc main_v15) := by after_results
theorem keep5_v22 (W : Valuation τ sig (Elt F)) :
    after ops5 W (Proc.devRef .tc main_v22) = W (Proc.devRef .tc main_v22) := by after_results
theorem keep5_v29 (W : Valuation τ sig (Elt F)) :
    after ops5 W (Proc.devRef .tc main_v29) = W (Proc.devRef .tc main_v29) := by after_results

theorem wrote6 (W : Valuation τ sig (Elt F)) :
    after ops6 W (Proc.devRef .tc main_v37)
      = concatenate S2048x63 1 [⟨S2048x1, W (Proc.devRef .tc main_v1)⟩, ⟨S2048x2, W (Proc.devRef .tc main_v8)⟩, ⟨S2048x4, W (Proc.devRef .tc main_v15)⟩,
          ⟨S2048x8, W (Proc.devRef .tc main_v22)⟩, ⟨S2048x16, W (Proc.devRef .tc main_v29)⟩, ⟨S2048x32, W (Proc.devRef .tc main_v36)⟩]
          concatenates_S2048x1_S2048x2_S2048x4_S2048x8_S2048x16_S2048x32_S2048x63_d1 := by
  after_results; rfl
theorem keep6_arg0 (W : Valuation τ sig (Elt F)) :
    after ops6 W (Proc.devRef .tc main_arg0) = W (Proc.devRef .tc main_arg0) := by after_results
theorem keep5_arg0 (W : Valuation τ sig (Elt F)) :
    after ops5 W (Proc.devRef .tc main_arg0) = W (Proc.devRef .tc main_arg0) := by after_results

/-- After the whole line the result buffer holds the six scales of the argument side by side, -/
theorem after_result (V : Valuation τ sig (Elt F)) :
    after ops V (Proc.devRef .tc main_v37) = pooledRef (V (Proc.devRef .tc main_arg0)) := by
  rw [ops_split]
  simp only [after_append]
  rw [wrote6, wrote5, keep5_v29, wrote4, keep5_v22, keep4_v22, wrote3, keep5_v15, keep4_v15, keep3_v15, wrote2,
    keep5_v8, keep4_v8, keep3_v8, keep2_v8, wrote1, keep5_v1, keep4_v1, keep3_v1, keep2_v1, keep1_v1, wrote0,
    keep4_arg0, keep3_arg0, keep2_arg0, keep1_arg0, keep0_arg0]
  rfl

/-- and the argument is as launched. -/
theorem after_arg (V : Valuation τ sig (Elt F)) :
    after ops V (Proc.devRef .tc main_arg0) = V (Proc.devRef .tc main_arg0) := by
  rw [ops_split]
  simp only [after_append]
  rw [keep6_arg0, keep5_arg0, keep4_arg0, keep3_arg0, keep2_arg0, keep1_arg0, keep0_arg0]

/-! ## The run -/

/-- On every device, from any memory with zero counters: every weakly fair execution of @main terminates with the result
    buffer at the six scales of the argument side by side and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = pooledRef (m ((c.tc : Thread nD τ).loc main_arg0))
      ∧ r.2.mem ((c.tc : Thread nD τ).loc main_arg0) = m ((c.tc : Thread nD τ).loc main_arg0) :=
  (θ_run defs _ _).mono (fun _ h c => ⟨(h c main_v37).trans (after_result _), (h c main_arg0).trans (after_arg _)⟩)
    (run_seq scopedRefs_eq scopedSems_eq defs main (fun _ => ops) main_eq (fun _ => ops_sub) m ρ)

end Cert.ReferenceIdeal.Pool

end
-- ==== Proof.RefPooled.lean ====
/-
  The reference computes the pooled matrix.

  At scale p the reference cuts the first p - 1 bins out of a row as one [2048, p - 1, w] array (a slice of the first
  (p - 1)·w columns, reshaped) and reduces it by maximum along its last axis, takes the last bin as the maximum of the
  remaining w columns, and joins the two along columns. Read at (r, j) either part is the fold of `max` from -∞ over
  the w entries of row r from column j·w on — bin j of width w — whichever part column j falls in. The six scales side
  by side are then the pooled matrix by `cat6_pooled`.
-/
import proofs.«166121_j23235773071814_2_alg».proof.Proof.RefRun
import proofs.«166121_j23235773071814_2_alg».proof.Proof.BinMax
import proofs.«166121_j23235773071814_2_alg».proof.Proof.LibRows
import proofs.«166121_j23235773071814_2_alg».proof.Proof.LibCols
import proofs.«166121_j23235773071814_2_alg».proof.Proof.Pool6

noncomputable section

namespace Cert.ReferenceIdeal.Pool

open Cert.ReferenceIdeal Cert.ReferenceIdeal.Gen Cert.BinMax Cert.LibCols
open Idealize.ShloMosaic Idealize.ShloMosaic.ValueIdx

/-- One scale of the reference at (r, j): bin j of width w of row r, whether column j lies in the reduced
    left part (j < q) or is the last bin (j = q); `qw = q · w` columns go to the left part, the remaining w to the last bin. -/
theorem scale_apply {n q p w qw : ℕ} {u : Shape} (hp : p = q + 1) (hqw : qw = q * w) (hW : qw + w = 32768)
    (x : FVec Ideal ⟨2, ![n, 32768]⟩ .f32)
    (hsl : (⟨2, ![n, 32768]⟩ : Shape).Slices ![0, 0] ⟨2, ![n, qw]⟩)
    (hsc : (⟨2, ![n, qw]⟩ : Shape).ShapeCasts ⟨3, ![n, q, w]⟩)
    (hr3' : (⟨3, ![n, q, w]⟩ : Shape).ReducesTo [2] (⟨2, ![n, q]⟩ : Shape))
    (hr3 : (⟨3, ![n, q, w]⟩ : Shape).Reduces [2] (⟨2, ![n, q]⟩ : Shape))
    (hsr : (⟨2, ![n, 32768]⟩ : Shape).Slices ![0, qw] ⟨2, ![n, w]⟩)
    (hr2' : (⟨2, ![n, w]⟩ : Shape).ReducesTo [1] (⟨1, ![n]⟩ : Shape))
    (hr2 : (⟨2, ![n, w]⟩ : Shape).Reduces [1] (⟨1, ![n]⟩ : Shape))
    (hb : (⟨1, ![n]⟩ : Shape).BroadcastsInDim ⟨2, ![n, 1]⟩ ![0])
    (hcat : Shape.Concatenates [(⟨2, ![n, q]⟩ : Shape), ⟨2, ![n, 1]⟩] ⟨2, ![n, p]⟩ 1)
    (init : u.Idx → Ideal .f32) (hu : 0 < u.numel) (hinit : init (Shape.Idx.first hu) = (⊥ : EReal))
    (r : Fin n) (j : Fin p) :
    concatenate ⟨2, ![n, p]⟩ 1
      [⟨⟨2, ![n, q]⟩, Host.reduce FloatOps.maximumf
          (shapeCast ⟨3, ![n, q, w]⟩ (extractStridedSlice ⟨2, ![n, qw]⟩ ![0, 0] x hsl) hsc) init hr3' hu⟩,
       ⟨⟨2, ![n, 1]⟩, broadcastInDim ⟨2, ![n, 1]⟩ ![0] hb
          (Host.reduce FloatOps.maximumf (extractStridedSlice ⟨2, ![n, w]⟩ ![0, qw] x hsr) init hr2' hu)⟩]
      hcat (ix2 r j) = bin (rowOf x r) w (j.val * w) := by
  have hj := j.isLt
  unfold bin
  by_cases hjq : j.val < q
  · rw [cat_cols_left _ _ hcat r j hjq, Cert.LibRows.hostRowMax3_apply _ init hr3' hr3 hu r ⟨j.val, hjq⟩, hinit]
    refine congrArg (fun f => Finset.fold max ⊥ f (Finset.univ : Finset (Fin w))) (funext fun k => ?_)
    have hk := k.isLt
    have h1 : j.val * w + k.val < qw := by
      rw [hqw]; calc j.val * w + k.val < j.val * w + w := by omega
        _ = (j.val + 1) * w := by ring
        _ ≤ q * w := Nat.mul_le_mul_right w hjq
    rw [reshape_rows_apply hqw _ hsc r ⟨j.val, hjq⟩ k h1, slice_cols_apply x hsl r _ (by show 0 + (j.val * w + k.val) < 32768; omega),
      rowOf_lt x r _ (by omega)]
    exact congrArg x (congrArg (ix2 r) (Fin.ext (by show 0 + (j.val * w + k.val) = j.val * w + k.val; omega)))
  · have hjq' : j.val = q := by omega
    rw [cat_cols_right _ _ hcat r j hjq', bcast_col_apply _ hb r 0, hostRowMax2_apply _ init hr2' hr2 hu r, hinit]
    refine congrArg (fun f => Finset.fold max ⊥ f (Finset.univ : Finset (Fin w))) (funext fun k => ?_)
    have hk := k.isLt
    rw [slice_cols_apply x hsr r k (by omega), rowOf_lt x r _ (by rw [hjq', ← hqw]; omega)]
    exact congrArg x (congrArg (ix2 r) (Fin.ext (by show qw + k.val = j.val * w + k.val; rw [hjq', hqw])))

/-- Scale 1 at (r, 0): the maximum of the whole row. -/
theorem scale0_apply (x : FVec Ideal S2048x32768 .f32) (r : Fin 2048) (j : Fin 1) :
    scale0 (F := Ideal) x (ix2 r j) = bin (rowOf x r) 32768 (j.val * 32768) := by
  have hj : j.val = 0 := by omega
  unfold scale0 bin
  rw [bcast_col_apply _ bcast_S2048_S2048x1_0 r j,
    hostRowMax2_apply (n := 2048) (b := 32768) x _ reducesTo_S2048x32768_S2048_d1 (by decide) h_S_ r]
  rw [show (constant S_ .f32 0xFF800000#32 : S_.Idx → Ideal .f32) (Shape.Idx.first h_S_) = (⊥ : EReal) from ninf]
  refine congrArg (fun f => Finset.fold max ⊥ f (Finset.univ : Finset (Fin 32768))) (funext fun k => ?_)
  rw [rowOf_lt x r _ (by have := k.isLt; omega)]
  exact congrArg x (congrArg (ix2 r) (Fin.ext (by show k.val = j.val * 32768 + k.val; omega)))

theorem scale1_apply (x : FVec Ideal S2048x32768 .f32) (r : Fin 2048) (j : Fin 2) :
    scale1 (F := Ideal) x (ix2 r j) = bin (rowOf x r) 16384 (j.val * 16384) := by
  unfold scale1
  exact scale_apply (n := 2048) (q := 1) (p := 2) (w := 16384) (qw := 16384) rfl rfl rfl x
    slices_S2048x32768_S2048x16384_0_0 shapeCasts_S2048x16384_S2048x1x16384 reducesTo_S2048x1x16384_S2048x1_d2 (by decide)
    slices_S2048x32768_S2048x16384_0_16384 reducesTo_S2048x16384_S2048_d1 (by decide) bcast_S2048_S2048x1_0
    concatenates_S2048x1_S2048x1_S2048x2_d1 (constant S_ .f32 0xFF800000#32) h_S_ ninf r j

theorem scale2_apply (x : FVec Ideal S2048x32768 .f32) (r : Fin 2048) (j : Fin 4) :
    scale2 (F := Ideal) x (ix2 r j) = bin (rowOf x r) 8192 (j.val * 8192) := by
  unfold scale2
  exact scale_apply (n := 2048) (q := 3) (p := 4) (w := 8192) (qw := 24576) rfl rfl rfl x
    slices_S2048x32768_S2048x24576_0_0 shapeCasts_S2048x24576_S2048x3x8192 reducesTo_S2048x3x8192_S2048x3_d2 (by decide)
    slices_S2048x32768_S2048x8192_0_24576 reducesTo_S2048x8192_S2048_d1 (by decide) bcast_S2048_S2048x1_0
    concatenates_S2048x3_S2048x1_S2048x4_d1 (constant S_ .f32 0xFF800000#32) h_S_ ninf r j

theorem scale3_apply (x : FVec Ideal S2048x32768 .f32) (r : Fin 2048) (j : Fin 8) :
    scale3 (F := Ideal) x (ix2 r j) = bin (rowOf x r) 4096 (j.val * 4096) := by
  unfold scale3
  exact scale_apply (n := 2048) (q := 7) (p := 8) (w := 4096) (qw := 28672) rfl rfl rfl x
    slices_S2048x32768_S2048x28672_0_0 shapeCasts_S2048x28672_S2048x7x4096 reducesTo_S2048x7x4096_S2048x7_d2 (by decide)
    slices_S2048x32768_S2048x4096_0_28672 reducesTo_S2048x4096_S2048_d1 (by decide) bcast_S2048_S2048x1_0
    concatenates_S2048x7_S2048x1_S2048x8_d1 (constant S_ .f32 0xFF800000#32) h_S_ ninf r j

theorem scale4_apply (x : FVec Ideal S2048x32768 .f32) (r : Fin 2048) (j : Fin 16) :
    scale4 (F := Ideal) x (ix2 r j) = bin (rowOf x r) 2048 (j.val * 2048) := by
  unfold scale4
  exact scale_apply (n := 2048) (q := 15) (p := 16) (w := 2048) (qw := 30720) rfl rfl rfl x
    slices_S2048x32768_S2048x30720_0_0 shapeCasts_S2048x30720_S2048x15x2048 reducesTo_S2048x15x2048_S2048x15_d2 (by decide)
    slices_S2048x32768_S2048x2048_0_30720 reducesTo_S2048x2048_S2048_d1 (by decide) bcast_S2048_S2048x1_0
    concatenates_S2048x15_S2048x1_S2048x16_d1 (constant S_ .f32 0xFF800000#32) h_S_ ninf r j

theorem scale5_apply (x : FVec Ideal S2048x32768 .f32) (r : Fin 2048) (j : Fin 32) :
    scale5 (F := Ideal) x (ix2 r j) = bin (rowOf x r) 1024 (j.val * 1024) := by
  unfold scale5
  exact scale_apply (n := 2048) (q := 31) (p := 32) (w := 1024) (qw := 31744) rfl rfl rfl x
    slices_S2048x32768_S2048x31744_0_0 shapeCasts_S2048x31744_S2048x31x1024 reducesTo_S2048x31x1024_S2048x31_d2 (by decide)
    slices_S2048x32768_S2048x1024_0_31744 reducesTo_S2048x1024_S2048_d1 (by decide) bcast_S2048_S2048x1_0
    concatenates_S2048x31_S2048x1_S2048x32_d1 (constant S_ .f32 0xFF800000#32) h_S_ ninf r j

/-- The reference's result is the pooled matrix of its argument. -/
theorem pooledRef_eq (x : FVec Ideal S2048x32768 .f32) : pooledRef (F := Ideal) x = G x := by
  funext i
  obtain ⟨r, c, rfl⟩ : ∃ (r : Fin 2048) (c : Fin 63), i = ix2 r c := ⟨i 0, i 1, eq_ix2 i⟩
  rw [G_ix2]
  unfold pooledRef
  exact Cert.Pool6.cat6_pooled (rowOf x r) r _ _ _ _ _ _ _ (scale0_apply x r) (scale1_apply x r) (scale2_apply x r)
    (scale3_apply x r) (scale4_apply x r) (scale5_apply x r) c

end Cert.ReferenceIdeal.Pool

end
-- ==== Proof.lean ====
/-
  Multi-scale max pooling of the rows of x : f32[2048, 32768] — the kernel against its jnp reference, at the extended reals.

  For each scale p ∈ {1, 2, 4, 8, 16, 32} a row is cut into p consecutive bins of width 32768 / p and each bin is replaced
  by its largest entry; the 63 numbers are laid out scale by scale (Proof/BinMax.lean: `pooled`, `G`).

  * The reference pools every scale directly from the row: for scale p one maximum-reduction over the first p - 1 bins
    (a slice reshaped to [2048, p - 1, w]) and one over the last bin, joined, and the six scales joined
    (Proof/RefRun.lean: the run and its stretch-by-stretch evaluation; Proof/RefPooled.lean: each scale read at an entry).
  * The kernel pools only the finest scale from the row — a loop of 32 trips, trip k writing the maximum of columns
    1024·k … 1024·k + 1023 into column k of a carried [128, 32] array (Proof/KernelFinest.lean, by induction over the
    trips) — and obtains each coarser scale from the next finer one by pairwise maxima (Proof/KernelBlock.lean); it does so
    on 16 blocks of 128 rows, which tile the result (Proof/KernelArray.lean).

  The two agree because a maximum taken from -∞ over a set of entries depends only on the set: a fold of `max` from ⊥ is
  below c exactly when every term is, so a bin of width 2w is the larger of its two halves (`bin_pair`). This holds for
  all extended reals, infinite ones included, so the precondition that the inputs are finite is never opened. Both
  programs use the one word 0xFF800000 = -∞ as the starting value of every maximum; the ideal pass rewrote nothing, so
  `preserves` is `True`. The three frames are the generated frame runs (the reference's its run with the result dropped).
-/
import proofs.«166121_j23235773071814_2_alg».proof.Defs
import proofs.«166121_j23235773071814_2_alg».proof.Proof.Gen.Kernel
import proofs.«166121_j23235773071814_2_alg».proof.Proof.Gen.Kernel.Skeleton
import proofs.«166121_j23235773071814_2_alg».proof.Proof.Gen.Kernel.Loops
import proofs.«166121_j23235773071814_2_alg».proof.Proof.Gen.Kernel.Launch
import proofs.«166121_j23235773071814_2_alg».proof.Proof.Gen.Kernel.Points
import proofs.«166121_j23235773071814_2_alg».proof.Proof.Gen.Kernel.Frame
import proofs.«166121_j23235773071814_2_alg».proof.Proof.Gen.KernelIdeal
import proofs.«166121_j23235773071814_2_alg».proof.Proof.Gen.KernelIdeal.Skeleton
import proofs.«166121_j23235773071814_2_alg».proof.Proof.Gen.KernelIdeal.Loops
import proofs.«166121_j23235773071814_2_alg».proof.Proof.Gen.KernelIdeal.Launch
import proofs.«166121_j23235773071814_2_alg».proof.Proof.Gen.KernelIdeal.Points
import proofs.«166121_j23235773071814_2_alg».proof.Proof.Gen.KernelIdeal.Frame
import proofs.«166121_j23235773071814_2_alg».proof.Proof.Gen.KernelIdeal.Value
import proofs.«166121_j23235773071814_2_alg».proof.Proof.Gen.ReferenceIdeal
import proofs.«166121_j23235773071814_2_alg».proof.Proof.Gen.Pre_finite_inputs
import proofs.«166121_j23235773071814_2_alg».proof.Proof.KernelArray
import proofs.«166121_j23235773071814_2_alg».proof.Proof.RefPooled
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Pool.run (F := Ideal) m ρ)

/-- The ideal pass rewrote no operation. -/
theorem preserves : Cert.preserves_Kernel_KernelIdeal := trivial

/-- At the extended reals the kernel's result array ends at the pooled matrix of its argument (the kernel's run, read)
    and the reference's at the six scales side by side of an argument that agrees (the reference's run, read), which is
    the same pooled matrix. -/
theorem algebraic : Cert.algebraic_KernelIdeal_ReferenceIdeal := by
  intro m ρ m' ρ' _ hagree
  refine ⟨fun c => Cert.BinMax.G (R := 2048) (m ((c.tc : Thread Cert.KernelIdeal.nD Cert.KernelIdeal.τ).loc Cert.KernelIdeal.main_arg0)),
    Cert.KernelIdeal.Pool.run m ρ, ?_⟩
  refine (θ_run Cert.ReferenceIdeal.defs _ _).mono (fun _ h c => ⟨(h c).1.trans ?_, (h c).2⟩)
    (Cert.ReferenceIdeal.Pool.run (F := Ideal) m' ρ')
  rw [hagree c]
  exact Cert.ReferenceIdeal.Pool.pooledRef_eq _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
